-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x32x32 : Shape := ⟨4, ![4096, 3, 32, 32]⟩
abbrev S3072x512 : Shape := ⟨2, ![3072, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S4096x3x32x32 : S_.BroadcastsInDim S4096x3x32x32 (![] : Fin 0 → Fin S4096x3x32x32.rank)
  reducesTo_S4096x3x32x32_S_d0_1_2_3 : S4096x3x32x32.ReducesTo [0, 1, 2, 3] S_
  h_S_ : 0 < S_.numel
  bcast_S_S3072x512 : S_.BroadcastsInDim S3072x512 (![] : Fin 0 → Fin S3072x512.rank)
  reducesTo_S3072x512_S_d0_1 : S3072x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S4096x3x32x32 .f32) (main_arg1 : FVec F S3072x512 .f32) (main_arg2 : FVec F S1x512 .f32) (main_arg3 : FVec F S512x128 .f32) (main_arg4 : FVec F S1x128 .f32) : IVec S_ 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_c : IVec S_ 1 := constantI S_ 1 1#1
  let main_v3 : IVec S_ 1 := (fun x v => Host.reduce IntOp.andi x v reducesTo_S4096x3x32x32_S_d0_1_2_3 h_S_) main_v2 main_c
  let main_v4 : FVec F S3072x512 .f32 := Host.absf main_arg1
  let main_cst_0 : FVec F S_ .f32 := constant S_ .f32 0x7F800000#32
  let main_v5 : FVec F S3072x512 .f32 := broadcastInDim S3072x512 ![] bcast_S_S3072x512 main_cst_0
  let main_v6 : IVec S3072x512 1 := cmpf .olt main_v4 main_v5
  let main_c_1 : IVec S_ 1 := constantI S_ 1 1#1
  let main_v7 : IVec S_ 1 := (fun x v => Host.reduce IntOp.andi x v reducesTo_S3072x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S4096x3x32x32 : Shape := ⟨4, ![4096, 3, 32, 32]⟩
abbrev S3072x512 : Shape := ⟨2, ![3072, 512]⟩
abbrev S1x512 : Shape := ⟨2, ![1, 512]⟩
abbrev S512x128 : Shape := ⟨2, ![512, 128]⟩
abbrev S1x128 : Shape := ⟨2, ![1, 128]⟩
abbrev S4096x3072 : Shape := ⟨2, ![4096, 3072]⟩
abbrev S4096x128 : Shape := ⟨2, ![4096, 128]⟩
abbrev S1024x3072 : Shape := ⟨2, ![1024, 3072]⟩
abbrev S1024x128 : Shape := ⟨2, ![1024, 128]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x3x32x32, .f32⟩
  | .hbm, ⟨1, _⟩ => ⟨S3072x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S4096x3072, .f32⟩
  | .hbm, ⟨6, _⟩ => ⟨S4096x128, .f32⟩
  | .local _ .vmem, ⟨0, _⟩ => ⟨S1024x3072, .f32⟩
  | .local _ .vmem, ⟨1, _⟩ => ⟨S1024x3072, .f32⟩
  | .local _ .vmem, ⟨2, _⟩ => ⟨S3072x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x3x32x32_S4096x3072 : S4096x3x32x32.ShapeCasts S4096x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  bitsLt_bf16_f32 : FTy.bits .bf16 < FTy.bits .f32
  inb_S3072x512_S3072x512_0_0 : ∀ a, (![0, 0] : Fin 2 → Nat) a + S3072x512.size a ≤ S3072x512.size a
  h_S3072x512 : 0 < S3072x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x3072_S3072x512_S1024x512_1_0_0_1_n_n_wf : DotDims.WF S1024x3072 S3072x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S4096x3072.size a
  hwx0_0 : ∀ i : grid0.Coords, EltTy.bits .f32 = 32 ∨ (Rect.block (s := S4096x3072) S1024x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x512.size a ≤ S3072x512.size a
  hwx0_1 : ∀ i : grid0.Coords, EltTy.bits .f32 = 32 ∨ (Rect.block (s := S3072x512) S3072x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)

variable [Facts₀]

def dot_S1024x3072_S3072x512_S1024x512_1_0_0_1_n_n : DotDims S1024x3072 S3072x512 S1024x512 where
  lhsContracting := [1]
  rhsContracting := [0]
  lhsNonContracting := [0]
  rhsNonContracting := [1]
  lhsBatch := []
  rhsBatch := []
  wf := dot_S1024x3072_S3072x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x3x32x32 : Shape := ⟨4, ![4096, 3, 32, 32]⟩
abbrev S3072x512 : Shape := ⟨2, ![3072, 512]⟩
abbrev S1x512 : Shape := ⟨2, ![1, 512]⟩
abbrev S512x128 : Shape := ⟨2, ![512, 128]⟩
abbrev S1x128 : Shape := ⟨2, ![1, 128]⟩
abbrev S4096x3072 : Shape := ⟨2, ![4096, 3072]⟩
abbrev S4096x512 : Shape := ⟨2, ![4096, 512]⟩
abbrev S256x512 : Shape := ⟨2, ![256, 512]⟩
abbrev S512x256 : Shape := ⟨2, ![512, 256]⟩
abbrev S1x256 : Shape := ⟨2, ![1, 256]⟩
abbrev S256x256 : Shape := ⟨2, ![256, 256]⟩
abbrev S4096x128 : Shape := ⟨2, ![4096, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4096x3x32x32, .f32⟩
  | .hbm, ⟨1, _⟩ => ⟨S3072x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S4096x3072, .f32⟩
  | .hbm, ⟨6, _⟩ => ⟨S4096x512, .f32⟩
  | .hbm, ⟨7, _⟩ => ⟨S4096x128, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x512, .f32⟩
  | .local _ .vmem, ⟨10, _⟩ => ⟨S256x512, .f32⟩
  | .local _ .vmem, ⟨11, _⟩ => ⟨S512x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 1], ![false, false, false]⟩

def k1_cond2 (i : grid1.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x3x32x32_S4096x3072 : S4096x3x32x32.ShapeCasts S4096x3072
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x512_S512x256_S256x256_1_0_0_1_n_n_wf : DotDims.WF S256x512 S512x256 S256x256 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x3072.size a
  hwx0_0 : ∀ i : grid0.Coords, EltTy.bits .f32 = 32 ∨ (Rect.block (s := S4096x3072) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S3072x512.size a
  hwx0_1 : ∀ i : grid0.Coords, EltTy.bits .f32 = 32 ∨ (Rect.block (s := S3072x512) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x512.size a
  hwx0_2 : ∀ i : grid0.Coords, EltTy.bits .f32 = 32 ∨ (Rect.block (s := S1x512) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x512.size a
  hwx0_3 : ∀ i : grid0.Coords, EltTy.bits .f32 = 32 ∨ (Rect.block (s := S4096x512) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .f32 = 32 ∨ (Rect.block (s := S4096x512) S256x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x128.size a
  hwx1_3 : ∀ i : grid1.Coords, EltTy.bits .f32 = 32 ∨ (Rect.block (s := S4096x128) S256x128.size (cc1_transform_3 i) (hinb1_3 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.LibMatrixRows.lean ====
/-
  Matrices over the extended reals, by coordinates, for any extents.

  Four operations on matrices indexed as rank-2 arrays are:

      times A B      (p, c) ↦ Σ_k A (p, k) · B (k, c)        the matrix product
      scaleRows f X  (p, c) ↦ f (p, 0) · X (p, c)            diag(f) · X, for f a one-column matrix
      column x       (p, 0) ↦ x p                            a vector laid out as one column
      clampBelow z X (p, c) ↦ max (X (p, c)) z               every entry clamped below at z (the rectifier at z = 0)

  each read at an index by `rfl`, and `rows σ X`, the rows of X picked by a map σ of row numbers (a band of
  consecutive rows is σ r = base + r). A product's rows depend only on the same rows of its left factor:

      rows σ (times A B) = times (rows σ A) B,      rows σ (scaleRows f X) = scaleRows (rows σ f) (rows σ X),
      rows σ (clampBelow z X) = clampBelow z (rows σ X)

  all by `rfl`. This is what makes a product computed band by band (each grid point loading a band of rows of the
  left factor and the whole right factor) the product of the whole arrays. Sums and products are total on the
  extended reals, so nothing here needs a finiteness hypothesis.
-/
import Idealize.ShloMosaic.Lib.ValueIdx
import Idealize.ShloMosaic.PureOps.Ideal.Laws

noncomputable section

namespace Cert.LibMatrixRows

open Idealize.ShloMosaic Idealize.ShloMosaic.ValueIdx
open scoped BigOperators

/-- An a × b matrix of extended reals, indexed as a rank-2 array is. -/
abbrev Mat (a b : ℕ) : Type := (⟨2, ![a, b]⟩ : Shape).Idx → EReal

/-- A vector of a extended reals, indexed as a rank-1 array is. -/
abbrev Vect (a : ℕ) : Type := (⟨1, ![a]⟩ : Shape).Idx → EReal

variable {M K N P : ℕ}

/-- The matrix product. -/
def times (A : Mat M K) (B : Mat K N) : Mat M N := fun i => ∑ k : Fin K, A (ix2 (i 0) k) * B (ix2 k (i 1))

/-- Row p of X multiplied by the entry p of a one-column matrix: diag(f) · X. -/
def scaleRows (f : Mat M 1) (X : Mat M N) : Mat M N := fun i => f (ix2 (i 0) (0 : Fin 1)) * X i

/-- A vector as a one-column matrix. -/
def column (x : Vect M) : Mat M 1 := fun i => x (ix1 (i 0))

/-- Every entry replaced by the larger of itself and z. -/
def clampBelow (z : EReal) (X : Mat M N) : Mat M N := fun i => max (X i) z

theorem times_apply (A : Mat M K) (B : Mat K N) (p : Fin M) (c : Fin N) :
    times A B (ix2 p c) = ∑ k : Fin K, A (ix2 p k) * B (ix2 k c) := rfl

theorem scaleRows_apply (f : Mat M 1) (X : Mat M N) (p : Fin M) (c : Fin N) :
    scaleRows f X (ix2 p c) = f (ix2 p (0 : Fin 1)) * X (ix2 p c) := rfl

theorem column_apply (x : Vect M) (p : Fin M) (u : Fin 1) : column x (ix2 p u) = x (ix1 p) := rfl

theorem clampBelow_apply (z : EReal) (X : Mat M N) (p : Fin M) (c : Fin N) :
    clampBelow z X (ix2 p c) = max (X (ix2 p c)) z := rfl

/-! ## Rows of a product

Row p of A · B is row p of A times B: cutting a band of rows out of the left factor and multiplying is cutting
the same band out of the product. The band is given by a map of row numbers. -/

/-- The rows of a matrix picked by a map of row numbers. -/
def rows (σ : Fin M → Fin P) (X : Mat P N) : Mat M N := fun i => X (ix2 (σ (i 0)) (i 1))

theorem rows_apply (σ : Fin M → Fin P) (X : Mat P N) (p : Fin M) (c : Fin N) : rows σ X (ix2 p c) = X (ix2 (σ p) c) := rfl

theorem rows_times (σ : Fin M → Fin P) (A : Mat P K) (B : Mat K N) : rows σ (times A B) = times (rows σ A) B := rfl

theorem rows_scaleRows (σ : Fin M → Fin P) (f : Mat P 1) (X : Mat P N) :
    rows σ (scaleRows f X) = scaleRows (rows σ f) (rows σ X) := rfl

theorem rows_clampBelow (σ : Fin M → Fin P) (z : EReal) (X : Mat P N) :
    rows σ (clampBelow z X) = clampBelow z (rows σ X) := rfl

end Cert.LibMatrixRows

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«165921_g2000202692251168_pallasbulk_345_10_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibLinear.lean ====
/-
  A linear layer — a matrix product plus one bias row repeated down the rows — read at an index at the exact
  instance, for any extents, on the vector unit and on the host.

  * `vectorLinear_apply`: the vector unit's `h · W` into a zero accumulator plus a one-row bias broadcast down the rows,
    at `(p, q)`, is `∑ k, h(p, k) · W(k, q) + b(0, q)`.
  * `hostLinear_apply`: the host's `dot_general h W` plus a one-row bias broadcast down the rows (`dims = [0, 1]`), at
    `(p, q)`, is the same sum.
  * `row_eq_cast`: a vector laid as one row by a broadcast (`dims = [1]`) and the same vector reshaped to one row are
    one array.
-/
import Idealize.ShloMosaic.Lib.ValueIdx
import Idealize.ShloMosaic.Lib.ValueLayout
import Idealize.ShloMosaic.Lib.Pipeline.Value
import Idealize.ShloMosaic.PureOps.Ideal.Laws
import proofs.«165921_g2000202692251168_pallasbulk_345_10_alg».proof.Proof.LibMatmul2d
import proofs.«165921_g2000202692251168_pallasbulk_345_10_alg».proof.Proof.LibHostStack
import proofs.«165921_g2000202692251168_pallasbulk_345_10_alg».proof.Proof.LibColumns

noncomputable section

namespace Cert.LibLinear

open Idealize.ShloMosaic Idealize.ShloMosaic.ValueIdx
open scoped BigOperators

variable {n K N : ℕ}

/-- A linear layer on the vector unit, at `(p, q)`. -/
theorem vectorLinear_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    addf (matmul (DotDims.plain n K N) none h W (constant ⟨2, ![n, N]⟩ .f32 0x00000000#32)) (broadcastTo ⟨2, ![n, N]⟩ b hb) (ix2 p q)
      = ∑ k : Fin K, h (ix2 p k) * W (ix2 k q) + b (ix2 (0 : Fin 1) q) := by
  have h1 := Cert.LibMatmul2d.matmul_plain_apply h W p q
  have h2 := broadcastTo_1b_ab_apply b hb p q
  show FloatOps.matmul (DotDims.plain n K N) none h W (constant ⟨2, ![n, N]⟩ .f32 0x00000000#32) (ix2 p q)
      + broadcastTo ⟨2, ![n, N]⟩ b hb (ix2 p q) = _
  rw [h1, h2]

/-- A linear layer on the host, its bias already one row, at `(p, q)`. -/
theorem hostLinear_apply {φ₁ φ₂ : FTy} (h : FVec Ideal ⟨2, ![n, K]⟩ φ₁) (W : FVec Ideal ⟨2, ![K, N]⟩ φ₂)
    (b : FVec Ideal ⟨2, ![1, N]⟩ .f32)
    (h₂ : (⟨2, ![1, N]⟩ : Shape).BroadcastsInDim ⟨2, ![n, N]⟩ (![0, 1] : Fin 2 → Fin (⟨2, ![n, N]⟩ : Shape).rank))
    (p : Fin n) (q : Fin N) :
    addf (Host.dotGeneral (DotDims.plain n K N) none h W) (broadcastInDim ⟨2, ![n, N]⟩ ![0, 1] h₂ b) (ix2 p q)
      = ∑ k : Fin K, h (ix2 p k) * W (ix2 k q) + b (ix2 (0 : Fin 1) q) := by
  have h1 := Cert.LibHostStack.dotGeneral_plain_apply h W p q
  have h2 := Cert.LibColumns.broadcastInDim_1b_ab_apply (a := n) b h₂ p q
  show Host.dotGeneral (DotDims.plain n K N) none h W (ix2 p q) + broadcastInDim ⟨2, ![n, N]⟩ ![0, 1] h₂ b (ix2 p q) = _
  rw [h1, h2]

/-- A vector reshaped to one row is the vector laid as one row by a broadcast. -/
theorem row_eq_cast {α : Type} (x : (⟨1, ![N]⟩ : Shape).Idx → α) (hc : (⟨1, ![N]⟩ : Shape).ShapeCasts ⟨2, ![1, N]⟩)
    (h₁ : (⟨1, ![N]⟩ : Shape).BroadcastsInDim ⟨2, ![1, N]⟩ (![1] : Fin 1 → Fin (⟨2, ![1, N]⟩ : Shape).rank)) :
    shapeCast ⟨2, ![1, N]⟩ x hc = broadcastInDim ⟨2, ![1, N]⟩ ![1] h₁ x := by
  funext j
  obtain ⟨u, q, rfl⟩ : ∃ (u : Fin 1) (q : Fin N), j = ix2 u q := ⟨j 0, j 1, eq_ix2 j⟩
  rw [Cert.LibColumns.broadcastInDim_b_1b_apply x h₁ u q]
  refine shapeCast_apply x hc _ _ ?_
  rw [Shape.rowMajor_val_two, Shape.rowMajor_val_one]
  have hu : u.val = 0 := by have := u.isLt; omega
  show q.val = u.val * N + q.val
  rw [hu, Nat.zero_mul, Nat.zero_add]

end Cert.LibLinear

end
-- ==== Proof.LibAffineRows.lean ====
/-
  Affine layers on matrices of extended reals, by coordinates, for any extents, and the rectified two-layer unit
  built from them, together with their behaviour under a choice of rows.

      plus A B        (p, c) ↦ A (p, c) + B (p, c)                    the entrywise sum
      addRow A b      (p, c) ↦ A (p, c) + b (0, c)                    one row b added to every row of A
      affine A W b    = addRow (times A W) b                          (p, c) ↦ Σ_k A (p, k) · W (k, c) + b (0, c)
      unit G H W₁ b₁ W₂ b₂ = affine (clampBelow 0 (affine (plus H G) W₁ b₁)) W₂ b₂

  Row p of each result depends only on row p of the left operands, so each commutes with `rows σ` (by `rfl`):
  a layer computed band of rows by band of rows against resident weights is the layer of the whole arrays.

  At the exact instance the printed spellings are these functions: the vector unit's product into a zero
  accumulator plus a broadcast one-row bias, and the host's `dot_general` plus a broadcast one-row bias, are
  `affine`; a maximum against a broadcast zero (either spelling) is `clampBelow 0`; `addf` is `plus`. Sums and
  products are total on the extended reals, so nothing here asks for finiteness.
-/
import Idealize.ShloMosaic.Lib.ValueIdx
import Idealize.ShloMosaic.Lib.ValueLayout
import Idealize.ShloMosaic.Lib.Pipeline.Value
import Idealize.ShloMosaic.PureOps.Ideal.Laws
import proofs.«165921_g2000202692251168_pallasbulk_345_10_alg».proof.Proof.LibMatrixRows
import proofs.«165921_g2000202692251168_pallasbulk_345_10_alg».proof.Proof.LibLinear

noncomputable section

namespace Cert.LibAffineRows

open Idealize.ShloMosaic Idealize.ShloMosaic.ValueIdx Cert.LibMatrixRows
open scoped BigOperators

variable {M K N P Q : ℕ}

/-- The entrywise sum. -/
def plus (A B : Mat M N) : Mat M N := fun i => A i + B i

/-- One row added to every row. -/
def addRow (A : Mat M N) (b : Mat 1 N) : Mat M N := fun i => A i + b (ix2 (0 : Fin 1) (i 1))

/-- A product plus one bias row. -/
def affine (A : Mat M K) (W : Mat K N) (b : Mat 1 N) : Mat M N := addRow (times A W) b

/-- The rectified two-layer unit applied to `H + G`. -/
def unit (G H : Mat M N) (W₁ : Mat N K) (b₁ : Mat 1 K) (W₂ : Mat K P) (b₂ : Mat 1 P) : Mat M P :=
  affine (clampBelow 0 (affine (plus H G) W₁ b₁)) W₂ b₂

theorem affine_apply (A : Mat M K) (W : Mat K N) (b : Mat 1 N) (p : Fin M) (c : Fin N) :
    affine A W b (ix2 p c) = ∑ k : Fin K, A (ix2 p k) * W (ix2 k c) + b (ix2 (0 : Fin 1) c) := rfl

theorem rows_plus (σ : Fin M → Fin Q) (A B : Mat Q N) : rows σ (plus A B) = plus (rows σ A) (rows σ B) := rfl

theorem rows_addRow (σ : Fin M → Fin Q) (A : Mat Q N) (b : Mat 1 N) : rows σ (addRow A b) = addRow (rows σ A) b := rfl

theorem rows_affine (σ : Fin M → Fin Q) (A : Mat Q K) (W : Mat K N) (b : Mat 1 N) :
    rows σ (affine A W b) = affine (rows σ A) W b := rfl

theorem rows_unit (σ : Fin M → Fin Q) (G H : Mat Q N) (W₁ : Mat N K) (b₁ : Mat 1 K) (W₂ : Mat K P) (b₂ : Mat 1 P) :
    rows σ (unit G H W₁ b₁ W₂ b₂) = unit (rows σ G) (rows σ H) W₁ b₁ W₂ b₂ := rfl

/-! ## One row of a band against the same row of the whole array

A band of rows `Ab` of `A` agrees with `A` row by row; at matching rows and equal columns the layer of the band is the
layer of the whole array. The band's row and the array's row are given by two indices `j` and `i`. -/

/-- An affine layer of a band, at `j`, is the affine layer of the whole array at `i`, when row `j 0` of the band is
    row `i 0` of the array, the weights and the bias row are the same, and the columns agree. -/
theorem affine_block (A : Mat Q K) (W : Mat K N) (b : Mat 1 N) (Ab : Mat M K) (Wb : Mat K N) (bb : Mat 1 N)
    (j : (⟨2, ![M, N]⟩ : Shape).Idx) (i : (⟨2, ![Q, N]⟩ : Shape).Idx)
    (hA : ∀ k : Fin K, Ab (ix2 (j 0) k) = A (ix2 (i 0) k)) (hW : Wb = W) (hb : bb = b)
    (hcol : (i 1).val = (j 1).val) :
    affine Ab Wb bb j = affine A W b i := by
  subst hW hb
  have e : (i 1 : Fin N) = j 1 := Fin.ext hcol
  show (∑ k : Fin K, Ab (ix2 (j 0) k) * Wb (ix2 k (j 1))) + bb (ix2 (0 : Fin 1) (j 1))
     = (∑ k : Fin K, A (ix2 (i 0) k) * Wb (ix2 k (i 1))) + bb (ix2 (0 : Fin 1) (i 1))
  rw [e]
  exact congrArg (· + bb (ix2 (0 : Fin 1) (j 1))) (Finset.sum_congr rfl fun k _ => by rw [hA k])

/-- The rectified two-layer unit of a band, at `j`, is the unit of the whole arrays at `i`, under the same
    agreements (both row-banded operands `G` and `H`). -/
theorem unit_block (G H : Mat Q N) (W₁ : Mat N K) (b₁ : Mat 1 K) (W₂ : Mat K P) (b₂ : Mat 1 P)
    (Gb Hb : Mat M N) (W₁b : Mat N K) (b₁b : Mat 1 K) (W₂b : Mat K P) (b₂b : Mat 1 P)
    (j : (⟨2, ![M, P]⟩ : Shape).Idx) (i : (⟨2, ![Q, P]⟩ : Shape).Idx)
    (hG : ∀ k : Fin N, Gb (ix2 (j 0) k) = G (ix2 (i 0) k)) (hH : ∀ k : Fin N, Hb (ix2 (j 0) k) = H (ix2 (i 0) k))
    (hW₁ : W₁b = W₁) (hb₁ : b₁b = b₁) (hW₂ : W₂b = W₂) (hb₂ : b₂b = b₂)
    (hcol : (i 1).val = (j 1).val) :
    unit Gb Hb W₁b b₁b W₂b b₂b j = unit G H W₁ b₁ W₂ b₂ i := by
  refine affine_block _ W₂ b₂ _ W₂b b₂b j i (fun k => ?_) hW₂ hb₂ hcol
  show max (affine (plus Hb Gb) W₁b b₁b (ix2 (j 0) k)) 0 = max (affine (plus H G) W₁ b₁ (ix2 (i 0) k)) 0
  refine congrArg (max · 0) (affine_block _ W₁ b₁ _ W₁b b₁b (ix2 (j 0) k) (ix2 (i 0) k) (fun k₂ => ?_) hW₁ hb₁ rfl)
  show Hb (ix2 (j 0) k₂) + Gb (ix2 (j 0) k₂) = H (ix2 (i 0) k₂) + G (ix2 (i 0) k₂)
  rw [hH k₂, hG k₂]

/-! ## The printed spellings at the exact instance -/

/-- The vector unit's product into a zero accumulator plus a one-row bias repeated down the rows. -/
theorem vectorAffine_eq {φ₁ φ₂ : FTy} (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul (DotDims.plain M K N) none h W (constant ⟨2, ![M, N]⟩ .f32 0x00000000#32)) (broadcastTo ⟨2, ![M, N]⟩ b hb)
      = affine (M := M) (K := K) (N := N) h W b := by
  funext j
  obtain ⟨p, q, rfl⟩ : ∃ (p : Fin M) (q : Fin N), j = ix2 p q := ⟨j 0, j 1, eq_ix2 j⟩
  rw [Cert.LibLinear.vectorLinear_apply]
  rfl

/-- The host's `dot_general` plus a one-row bias repeated down the rows. -/
theorem hostAffine_eq {φ₁ φ₂ : FTy} (h : FVec Ideal ⟨2, ![M, K]⟩ φ₁) (W : FVec Ideal ⟨2, ![K, N]⟩ φ₂)
    (b : FVec Ideal ⟨2, ![1, N]⟩ .f32)
    (h₂ : (⟨2, ![1, N]⟩ : Shape).BroadcastsInDim ⟨2, ![M, N]⟩ (![0, 1] : Fin 2 → Fin (⟨2, ![M, N]⟩ : Shape).rank)) :
    addf (Host.dotGeneral (DotDims.plain M K N) none h W) (broadcastInDim ⟨2, ![M, N]⟩ ![0, 1] h₂ b)
      = affine (M := M) (K := K) (N := N) h W b := by
  funext j
  obtain ⟨p, q, rfl⟩ : ∃ (p : Fin M) (q : Fin N), j = ix2 p q := ⟨j 0, j 1, eq_ix2 j⟩
  rw [Cert.LibLinear.hostLinear_apply]
  rfl

/-- The vector unit's maximum against a broadcast zero. -/
theorem vectorRelu_eq (X : FVec Ideal ⟨2, ![M, N]⟩ .f32) :
    maximumf X (broadcast ⟨2, ![M, N]⟩ (Scalar.ofBits .f32 0x00000000#32)) = clampBelow (M := M) (N := N) 0 X := by
  funext j
  show max (X j) (Ideal.ofBits .f32 0x00000000#32) = max (X j) 0
  rw [Ideal.ofBits_zero_f32]

/-- The host's maximum against a zero constant laid over the array. -/
theorem hostRelu_eq (X : FVec Ideal ⟨2, ![M, N]⟩ .f32)
    (h₀ : (⟨0, ![]⟩ : Shape).BroadcastsInDim ⟨2, ![M, N]⟩ (![] : Fin 0 → Fin (⟨2, ![M, N]⟩ : Shape).rank)) :
    maximumf X (broadcastInDim ⟨2, ![M, N]⟩ ![] h₀ (constant (F := Ideal) ⟨0, ![]⟩ .f32 0x00000000#32))
      = clampBelow (M := M) (N := N) 0 X := by
  funext j
  have h3 : broadcastInDim ⟨2, ![M, N]⟩ ![] h₀ (constant (F := Ideal) ⟨0, ![]⟩ .f32 0x00000000#32) j = 0 :=
    (broadcastInDim_apply _ h₀ _ j (fun a => a.elim0) (fun a => a.elim0)).trans Ideal.ofBits_zero_f32
  show max (X j) (broadcastInDim ⟨2, ![M, N]⟩ ![] h₀ (constant (F := Ideal) ⟨0, ![]⟩ .f32 0x00000000#32) j) = max (X j) 0
  rw [h3]

/-- The entrywise float sum. -/
theorem addf_eq_plus (A B : FVec Ideal ⟨2, ![M, N]⟩ .f32) : addf A B = plus (M := M) (N := N) A B := rfl

end Cert.LibAffineRows

end
-- ==== Proof.KernelMath.lean ====
/-
  The kernel at the exact instance: its result array ends at the two affine layers (X·W₁ + b₁)·W₂ + b₂ of the arrays
  the region is entered with.

  A change of float format is the identity at the exact instance, so the body's one stored value is the second affine
  layer of the first affine layer of its blocks.  Point t is handed band t (1024 rows) of X and the whole of the two
  weight matrices and bias rows; row p of a band's layer is row p of the band, through both layers; the four bands
  written back tile the result.
-/
import proofs.«165921_g2000202692251168_pallasbulk_345_10_alg».proof.Proof.Gen.KernelIdeal.Value
import proofs.«165921_g2000202692251168_pallasbulk_345_10_alg».proof.Proof.LibAffineRows
import Idealize.ShloMosaic.Lib.ValueLayout

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat)
open Cert.KernelIdeal Cert.KernelIdeal.Gen
open Cert.LibMatrixRows Cert.LibAffineRows
open scoped BigOperators

/-- The body's stored value: two affine layers. -/
theorem body_eq (x0 : Vec Ideal S1024x3072 .f32) (x1 : Vec Ideal S3072x512 .f32) (x2 : Vec Ideal S1x512 .f32) (x3 : Vec Ideal S512x128 .f32) (x4 : Vec Ideal S1x128 .f32) :
    k0_pay1 (F := Ideal) x0 x1 x2 x3 x4
      = affine (M := 1024) (K := 512) (N := 128) (affine (M := 1024) (K := 3072) (N := 512) x0 x1 x2) x3 x4 := by
  simp only [k0_pay1, shapeCast_self]
  rw [show dot_S1024x3072_S3072x512_S1024x512_1_0_0_1_n_n = DotDims.plain 1024 3072 512 from rfl,
    show dot_S1024x512_S512x128_S1024x128_1_0_0_1_n_n = DotDims.plain 1024 512 128 from rfl]
  rw [vectorAffine_eq, vectorAffine_eq]
  rfl

theorem zero_offsets : (![0, 0] : Fin 2 → ℕ) = fun _ => 0 := by funext a; fin_cases a <;> rfl

variable (m : (ℓ : Loc nD τ sig) → Buf (Elt Ideal) ℓ)

/-- Point t works on band t of X and of the result, and on the whole of every other operand. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem mem_blk (t : Fin cfg0.N) (i : S4096x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v1).slice (win0_5.rect t)).set ↔ _
  rw [View.set_slice_whole, Rect.mem_set_unit]
  exact Iff.rfl

/-- WHAT POINT t WRITES BACK is its band of the two layers of the whole arrays. -/
theorem flushed_eq (c : Dev nD) (X : Mat 4096 3072) (hX : (V m c main_v0 : S4096x3072.Idx → EReal) = X)
    (W₁ : Mat 3072 512) (hW₁ : (V m c main_arg1 : S3072x512.Idx → EReal) = W₁)
    (b₁ : Mat 1 512) (hb₁ : (V m c main_arg2 : S1x512.Idx → EReal) = b₁)
    (W₂ : Mat 512 128) (hW₂ : (V m c main_arg3 : S512x128.Idx → EReal) = W₂)
    (b₂ : Mat 1 128) (hb₂ : (V m c main_arg4 : S1x128.Idx → EReal) = b₂) (t : Fin cfg0.N) :
    (dats m 0 c).flushed 5 t = ((cfg0.win 5).blk t).view.read (Elt Ideal) (affine (affine X W₁ b₁) W₂ b₂) := by
  obtain ⟨e0, e1, e2, e3, e4, e5, e6, e7, e8, e9, e10, e11⟩ := index_facts t
  rw [Cert.KernelIdeal.Value.flushed5]
  unfold out0_5
  rw [View.canon_unit_zero zero_offsets]
  simp only [View.ld_unit_zero (S := S1024x3072) zero_offsets, View.ld_unit_zero (S := S3072x512) zero_offsets,
    View.ld_unit_zero (S := S1x512) zero_offsets, View.ld_unit_zero (S := S512x128) zero_offsets, View.ld_unit_zero (S := S1x128) zero_offsets]
  rw [body_eq]
  funext j
  show affine (M := 1024) (K := 512) (N := 128) (affine (M := 1024) (K := 3072) (N := 512) (iblk m c 0 t) (iblk m c 1 t) (iblk m c 2 t)) (iblk m c 3 t) (iblk m c 4 t) j
    = affine (affine X W₁ b₁) W₂ b₂ (((cfg0.win 5).blk t).view.emb j)
  refine affine_block (affine X W₁ b₁) W₂ b₂ _ (iblk m c 3 t) (iblk m c 4 t) j (((cfg0.win 5).blk t).view.emb j) (fun k => ?_) ?_ ?_ ?_
  · refine affine_block X W₁ b₁ (iblk m c 0 t) (iblk m c 1 t) (iblk m c 2 t) (ix2 (j 0) k) (ix2 ((((cfg0.win 5).blk t).view.emb j) 0) k) (fun k₂ => ?_) ?_ ?_ rfl
    · rw [← hX]
      show V m c main_v0 (((cfg0.win 0).blk t).view.emb (ix2 (j 0) k₂)) = V m c main_v0 (ix2 ((((cfg0.win 5).blk t).view.emb j) 0) k₂)
      refine congrArg _ ?_
      funext a; apply Fin.ext
      match a with
      | ⟨0, _⟩ => show win0_0.index t (0 : Fin 2) * 1024 + 1 * (j 0).val = win0_5.index t (0 : Fin 2) * 1024 + 1 * (j 0).val; omega
      | ⟨1, _⟩ => show win0_0.index t (1 : Fin 2) * 3072 + 1 * k₂.val = k₂.val; omega
    · rw [← hW₁]
      funext y
      show V m c main_arg1 (((cfg0.win 1).blk t).view.emb y) = V m c main_arg1 y
      refine congrArg _ ?_
      funext a; apply Fin.ext
      match a with
      | ⟨0, _⟩ => show win0_1.index t (0 : Fin 2) * 3072 + 1 * (y 0).val = (y 0).val; omega
      | ⟨1, _⟩ => show win0_1.index t (1 : Fin 2) * 512 + 1 * (y 1).val = (y 1).val; omega
    · rw [← hb₁]
      funext y
      show V m c main_arg2 (((cfg0.win 2).blk t).view.emb y) = V m c main_arg2 y
      refine congrArg _ ?_
      funext a; apply Fin.ext
      match a with
      | ⟨0, _⟩ => show win0_2.index t (0 : Fin 2) * 1 + 1 * (y 0).val = (y 0).val; omega
      | ⟨1, _⟩ => show win0_2.index t (1 : Fin 2) * 512 + 1 * (y 1).val = (y 1).val; omega
  · rw [← hW₂]
    funext y
    show V m c main_arg3 (((cfg0.win 3).blk t).view.emb y) = V m c main_arg3 y
    refine congrArg _ ?_
    funext a; apply Fin.ext
    match a with
    | ⟨0, _⟩ => show win0_3.index t (0 : Fin 2) * 512 + 1 * (y 0).val = (y 0).val; omega
    | ⟨1, _⟩ => show win0_3.index t (1 : Fin 2) * 128 + 1 * (y 1).val = (y 1).val; omega
  · rw [← hb₂]
    funext y
    show V m c main_arg4 (((cfg0.win 4).blk t).view.emb y) = V m c main_arg4 y
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (1 : Fin 2) * 128 + 1 * (j 1).val = (j 1).val; omega

/-- The four bands cover the result: row a lies in band a / 1024. -/
theorem cover (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 4 := N_0
  refine ⟨⟨(i 0).val / 1024, by rw [hN]; omega⟩, flush0_5 _, ?_⟩
  rw [mem_blk]
  obtain ⟨-, -, -, -, -, -, -, -, -, -, e10, e11⟩ := index_facts ⟨(i 0).val / 1024, by rw [hN]; omega⟩
  intro a
  match a with
  | ⟨0, _⟩ =>
    show win0_5.index _ (0 : Fin 2) * 1024 ≤ (i 0).val ∧ (i 0).val < win0_5.index _ (0 : Fin 2) * 1024 + 1024
    rw [e10]; show (i 0).val / 1024 * 1024 ≤ (i 0).val ∧ (i 0).val < (i 0).val / 1024 * 1024 + 1024
    omega
  | ⟨1, _⟩ =>
    show win0_5.index _ (1 : Fin 2) * 128 ≤ (i 1).val ∧ (i 1).val < win0_5.index _ (1 : Fin 2) * 128 + 128
    rw [e11]; omega

/-- THE RESULT after the region. -/
theorem final (c : Dev nD) (X : Mat 4096 3072) (hX : (V m c main_v0 : S4096x3072.Idx → EReal) = X)
    (W₁ : Mat 3072 512) (hW₁ : (V m c main_arg1 : S3072x512.Idx → EReal) = W₁)
    (b₁ : Mat 1 512) (hb₁ : (V m c main_arg2 : S1x512.Idx → EReal) = b₁)
    (W₂ : Mat 512 128) (hW₂ : (V m c main_arg3 : S512x128.Idx → EReal) = W₂)
    (b₂ : Mat 1 128) (hb₂ : (V m c main_arg4 : S1x128.Idx → EReal) = b₂) :
    ((dats m 0 c).arrAt 5 cfg0.N : S4096x128.Idx → EReal) = affine (affine X W₁ b₁) W₂ b₂ :=
  (dats m 0 c).arrAt_eq_of_cover 5 (affine (affine X W₁ b₁) W₂ b₂) (fun t _ => flushed_eq m c X hX W₁ hW₁ b₁ hb₁ W₂ hW₂ b₂ hb₂ t) cover

end Cert.KernelIdeal.Whole

end
-- ==== Proof.RefShared.lean ====
/-
  The reference is two linear layers, each a kernel region of its own.  Region 0 walks a grid (i, j, k) of
  16 × 2 × 6 points: at a point it adds the product of a 256 × 512 block of the flattened input with a
  512 × 256 block of the first weight matrix into an accumulator it keeps between points, clears that accumulator
  first when k = 0, and when k = 5 stores accumulator + bias row into the output block (i, j), which only then is
  written back.  Region 1 walks 16 points, each of them both a first and a last step.
  This module fixes what the statements about the two bodies share: the two branch conditions of each body in
  closed form over the grid, at which points the output window rests, and names for the buffers a body is called on.
-/
import proofs.«165921_g2000202692251168_pallasbulk_345_10_alg».proof.Proof.Gen.ReferenceIdeal.Launch
import proofs.«165921_g2000202692251168_pallasbulk_345_10_alg».proof.Proof.Gen.ReferenceIdeal.Skeleton
import proofs.«165921_g2000202692251168_pallasbulk_345_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## Region 0: the conditions "k = 0" and "k = 5" -/

/-- The body's first branch is taken exactly when the contraction coordinate k is 0 … -/
abbrev first0 (i : grid0.Coords) : Prop :=
  (Scalar.cmpi .ne (Scalar.extui (Scalar.cmpi .eq (BitVec.ofNat 32 (i 2).val) 0#32)) 0#32) = 1#1
/-- … that is, at the points whose number is a multiple of 6 (k is the fastest coordinate, of extent 6). -/
theorem first0_iff : ∀ t : Fin cfg0.N, first0 (grid0.coords t) ↔ t.val % 6 = 0 :=
  (by decide +kernel : ∀ t : Fin grid0.N, first0 (grid0.coords t) ↔ t.val % 6 = 0)

/-- The body's second branch is taken exactly when k is 5, the last step of a contraction, … -/
abbrev last0 (i : grid0.Coords) : Prop := k0_cond2 i = 1#1
/-- … the points ≡ 5 (mod 6). -/
theorem last0_iff : ∀ t : Fin cfg0.N, last0 (grid0.coords t) ↔ t.val % 6 = 5 :=
  (by decide +kernel : ∀ t : Fin grid0.N, last0 (grid0.coords t) ↔ t.val % 6 = 5)

/-- The three inputs are never at rest. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last step the output block is neither stored into nor written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
/-- At the last step it is stored into. -/
theorem live0_3 : ∀ t : Fin cfg0.N, last0 (grid0.coords t) → cfg0.idle 3 (grid0.coords t) = false := by decide +kernel

/-- The buffers the body is called on at point `t`: the windows' current staging buffers and the accumulator. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
/-- The accumulator of region 0. -/
abbrev acc0 : Memref sig .tc .vmem S256x256 .f32 := Memref.whole cc0_scratch0
/-- The accumulator of region 1. -/
abbrev acc1 : Memref sig .tc .vmem S256x128 .f32 := Memref.whole cc1_scratch0

/-! ## Region 1: every point is a first and a last step -/

abbrev first1 (i : grid1.Coords) : Prop :=
  (Scalar.cmpi .ne (Scalar.extui (Scalar.cmpi .eq (BitVec.ofNat 32 (i 2).val) 0#32)) 0#32) = 1#1
theorem first1_all : ∀ t : Fin cfg1.N, first1 (grid1.coords t) :=
  (by decide +kernel : ∀ t : Fin grid1.N, first1 (grid1.coords t))
abbrev last1 (i : grid1.Coords) : Prop := k1_cond2 i = 1#1
theorem last1_all : ∀ t : Fin cfg1.N, last1 (grid1.coords t) :=
  (by decide +kernel : ∀ t : Fin grid1.N, last1 (grid1.coords t))

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)

end Cert.ReferenceIdeal.Layers

end
-- ==== Proof.RefRun0First.lean ====
/-
  Region 0's body at a FIRST step of a contraction (k = 0): the accumulator, found at anything, is cleared and the
  product of the two input blocks added into it; the bias row and the output block are not touched.  The pieces the
  accumulator ends with are the witness the run finds.
-/
import proofs.«165921_g2000202692251168_pallasbulk_345_10_alg».proof.Proof.RefShared

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

set_option maxHeartbeats 1000000 in
noncomputable def run0_first (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : first0 i) (hl : ¬last0 i) (x : Vec F S256x512 .f32) (w : Vec F S512x256 .f32) :
    { LS : List (View.Piece (Elt F) S256x256 .f32) //
      ∀ (E : Set ℕ) (K : PUnit → sProp 𝕄),
        iprop(owns (c : Thread nD τ) arg3 fullShare x ∗ owns (c : Thread nD τ) arg4 fullShare w ∗ (∃ d, owns (c : Thread nD τ) arg7 fullShare d)
            ∗ (iprop(owns (c : Thread nD τ) arg3 fullShare x ∗ owns (c : Thread nD τ) arg4 fullShare w ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, fun E K => ?run⟩
  case run =>
    simp only [cc0__linear_kernel_eq_skeleton]; unfold cc0__linear_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.ReferenceIdeal.Layers

end
-- ==== Proof.RefRun0Middle.lean ====
/-
  Region 0's body at a MIDDLE step of a contraction (0 < k < 5): the product of the two input blocks is added into
  the accumulator, found at what the step before left; the bias row and the output block are not touched.
-/
import proofs.«165921_g2000202692251168_pallasbulk_345_10_alg».proof.Proof.RefShared

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

set_option maxHeartbeats 1000000 in
noncomputable def run0_middle (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : ¬last0 i) (x : Vec F S256x512 .f32) (w : Vec F S512x256 .f32) (xs : Vec F S256x256 .f32) :
    { LS : List (View.Piece (Elt F) S256x256 .f32) //
      ∀ (E : Set ℕ) (K : PUnit → sProp 𝕄),
        iprop(owns (c : Thread nD τ) arg3 fullShare x ∗ owns (c : Thread nD τ) arg4 fullShare w ∗ owns (c : Thread nD τ) arg7 fullShare xs
            ∗ (iprop(owns (c : Thread nD τ) arg3 fullShare x ∗ owns (c : Thread nD τ) arg4 fullShare w ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, fun E K => ?run⟩
  case run =>
    simp only [cc0__linear_kernel_eq_skeleton]; unfold cc0__linear_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg7.eq_unread hfs0
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.ReferenceIdeal.Layers

end
-- ==== Proof.RefRun0Last.lean ====
/-
  Region 0's body at the LAST step of a contraction (k = 5): the product of the two input blocks is added into the
  accumulator, found at what the step before left, and accumulator + bias row is stored over the whole output block.
-/
import proofs.«165921_g2000202692251168_pallasbulk_345_10_alg».proof.Proof.RefShared

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

set_option maxHeartbeats 1000000 in
noncomputable def run0_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : last0 i) (x : Vec F S256x512 .f32) (w : Vec F S512x256 .f32) (b : Vec F S1x256 .f32) (xs : Vec F S256x256 .f32) :
    Σ' (L3 : List (View.Piece (Elt F) S256x256 .f32)), { LS : List (View.Piece (Elt F) S256x256 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.ReferenceIdeal.Layers

end
-- ==== Proof.RefRun1.lean ====
/-
  Region 1's body, every point a first and a last step at once: the accumulator, found at anything, is cleared, the
  product of the two input blocks added into it, and accumulator + bias row stored over the whole output block.
-/
import proofs.«165921_g2000202692251168_pallasbulk_345_10_alg».proof.Proof.RefShared

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

set_option maxHeartbeats 1000000 in
noncomputable def run1_only (c : Dev nD) (i : grid1.Coords) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole)
    (hf : first1 i) (hl : last1 i) (x : Vec F S256x512 .f32) (w : Vec F S512x128 .f32) (b : Vec F S1x128 .f32) :
    Σ' (L3 : List (View.Piece (Elt F) S256x128 .f32)), { LS : List (View.Piece (Elt F) S256x128 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ (∃ d, owns (c : Thread nD τ) arg7 fullShare d)
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.ReferenceIdeal.Layers

end
-- ==== Proof.LibWholeStores.lean ====
/-
  Whole-buffer stores and the loads after them, for any shape and element type.

  A store through the rectangle that is the whole buffer (offsets zero, extents the shape's) overwrites everything, so
  whatever was stored before it no longer matters: a load of the whole buffer made after a list of stores whose LAST is
  such a store reads exactly that store's value.  This is what an accumulator that is cleared and then read back, or
  updated and then read back, comes to.  Beside it, the zero offsets of a two-dimensional buffer as a function.
-/
import Idealize.ShloMosaic.Lib.Pipeline.Value
import Idealize.ShloMosaic.Lib.Pipeline.FrameBody

noncomputable section

namespace Cert.LibWholeStores

open Idealize.ShloMosaic

/-- The offsets of a load or store of a whole two-dimensional buffer are zero. -/
theorem zero_offsets : (![0, 0] : Fin 2 → ℕ) = fun _ => 0 := by funext a; fin_cases a <;> rfl

/-- A load of the whole buffer after a list of stores whose LAST covers the whole buffer reads that store's value. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.LibWholeStores

end
-- ==== Proof.RefPieces.lean ====
/-
  What each case of the two bodies leaves behind, as formulas.  A body's last store into a buffer covers the whole
  buffer, so the buffer ends at that store's value whatever was stored before; a load of the whole accumulator after
  such a store reads the stored value; a load off an input's buffer reads the input's block.  Hence, with x, w, b the
  blocks of the left operand, the weights and the bias row, and a the accumulator as the step before left it:

    first step   accumulator  :=  0 + x·w
    middle step  accumulator  :=  a + x·w
    last step    accumulator  :=  a + x·w,     output block := (a + x·w) + b
    region 1     output block :=  (0 + x·w) + b

  each right-hand side spelt with the body's own operations.
-/
import proofs.«165921_g2000202692251168_pallasbulk_345_10_alg».proof.Proof.RefRun0First
import proofs.«165921_g2000202692251168_pallasbulk_345_10_alg».proof.Proof.RefRun0Middle
import proofs.«165921_g2000202692251168_pallasbulk_345_10_alg».proof.Proof.RefRun0Last
import proofs.«165921_g2000202692251168_pallasbulk_345_10_alg».proof.Proof.RefRun1
import Idealize.ShloMosaic.Lib.Pipeline.Value
import proofs.«165921_g2000202692251168_pallasbulk_345_10_alg».proof.Proof.LibWholeStores

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

open Cert.LibWholeStores

/-! ## Region 0, a first step -/

theorem cover0_first (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : first0 i) (hl : ¬last0 i) (x : Vec F S256x512 .f32) (w : Vec F S512x256 .f32) (y : S256x256.Idx) :
    ∃ pc ∈ (run0_first (F := F) c i arg3 harg3 arg4 harg4 arg5 harg5 arg6 harg6 arg7 harg7 hf hl x w).1, y ∈ pc.1.set :=
  View.cover_of_tiledL _ S256x256.size (by sl_kernel_rfl) y

theorem acc0_first (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : first0 i) (hl : ¬last0 i) (x : Vec F S256x512 .f32) (w : Vec F S512x256 .f32) :
    View.canon (run0_first (F := F) c i arg3 harg3 arg4 harg4 arg5 harg5 arg6 harg6 arg7 harg7 hf hl x w).1 = k0_pay2 (k0_pay1) x w := by
  unfold run0_first; dsimp only; sl_unfold_words
  rw [View.canon_cons_unit_zero zero_offsets]
  simp only [View.readAt_eq_ld, harg3.read_unread, harg4.read_unread, View.ld_unit_zero (S := S256x512) zero_offsets,
    View.ld_unit_zero (S := S512x256) zero_offsets, readCov_cons_whole (S := S256x256) _ zero_offsets]

/-! ## Region 0, a middle step -/

theorem cover0_middle (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : ¬last0 i) (x : Vec F S256x512 .f32) (w : Vec F S512x256 .f32) (xs : Vec F S256x256 .f32) (y : S256x256.Idx) :
    ∃ pc ∈ (run0_middle (F := F) c i arg3 harg3 arg4 harg4 arg5 harg5 arg6 harg6 arg7 harg7 hf hl x w xs).1, y ∈ pc.1.set :=
  View.cover_of_tiledL _ S256x256.size (by sl_kernel_rfl) y

theorem acc0_middle (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : ¬last0 i) (x : Vec F S256x512 .f32) (w : Vec F S512x256 .f32) (xs : Vec F S256x256 .f32) :
    View.canon (run0_middle (F := F) c i arg3 harg3 arg4 harg4 arg5 harg5 arg6 harg6 arg7 harg7 hf hl x w xs).1 = k0_pay2 xs x w := by
  unfold run0_middle; dsimp only; sl_unfold_words
  rw [View.canon_cons_unit_zero zero_offsets]
  simp only [View.readAt_eq_ld, harg3.read_unread, harg4.read_unread, harg7.read_unread, View.ld_unit_zero (S := S256x512) zero_offsets,
    View.ld_unit_zero (S := S512x256) zero_offsets, View.ld_unit_zero (S := S256x256) zero_offsets]

/-! ## Region 0, a last step -/

theorem cover0_last_out (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : last0 i) (x : Vec F S256x512 .f32) (w : Vec F S512x256 .f32) (b : Vec F S1x256 .f32) (xs : Vec F S256x256 .f32) (y : S256x256.Idx) :
    ∃ pc ∈ (run0_last (F := F) c i arg3 harg3 arg4 harg4 arg5 harg5 arg6 harg6 arg7 harg7 hf hl x w b xs).1, y ∈ pc.1.set :=
  View.cover_of_tiledL _ S256x256.size (by sl_kernel_rfl) y

theorem cover0_last_acc (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : last0 i) (x : Vec F S256x512 .f32) (w : Vec F S512x256 .f32) (b : Vec F S1x256 .f32) (xs : Vec F S256x256 .f32) (y : S256x256.Idx) :
    ∃ pc ∈ (run0_last (F := F) c i arg3 harg3 arg4 harg4 arg5 harg5 arg6 harg6 arg7 harg7 hf hl x w b xs).2.1, y ∈ pc.1.set :=
  View.cover_of_tiledL _ S256x256.size (by sl_kernel_rfl) y

theorem out0_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : last0 i) (x : Vec F S256x512 .f32) (w : Vec F S512x256 .f32) (b : Vec F S1x256 .f32) (xs : Vec F S256x256 .f32) :
    View.canon (run0_last (F := F) c i arg3 harg3 arg4 harg4 arg5 harg5 arg6 harg6 arg7 harg7 hf hl x w b xs).1 = k0_pay3 (k0_pay2 xs x w) b := by
  unfold run0_last; dsimp only; sl_unfold_words
  rw [View.canon_cons_unit_zero zero_offsets]
  simp only [View.readAt_eq_ld, harg3.read_unread, harg4.read_unread, harg5.read_unread, harg7.read_unread, View.ld_unit_zero (S := S256x512) zero_offsets,
    View.ld_unit_zero (S := S512x256) zero_offsets, View.ld_unit_zero (S := S256x256) zero_offsets, View.ld_unit_zero (S := S1x256) zero_offsets,
    readCov_cons_whole (S := S256x256) _ zero_offsets]

theorem acc0_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole)
    (hf : ¬first0 i) (hl : last0 i) (x : Vec F S256x512 .f32) (w : Vec F S512x256 .f32) (b : Vec F S1x256 .f32) (xs : Vec F S256x256 .f32) :
    View.canon (run0_last (F := F) c i arg3 harg3 arg4 harg4 arg5 harg5 arg6 harg6 arg7 harg7 hf hl x w b xs).2.1 = k0_pay2 xs x w := by
  unfold run0_last; dsimp only; sl_unfold_words
  rw [View.canon_cons_unit_zero zero_offsets]
  simp only [View.readAt_eq_ld, harg3.read_unread, harg4.read_unread, harg7.read_unread, View.ld_unit_zero (S := S256x512) zero_offsets,
    View.ld_unit_zero (S := S512x256) zero_offsets, View.ld_unit_zero (S := S256x256) zero_offsets]

/-! ## Region 1 -/

theorem cover1_out (c : Dev nD) (i : grid1.Coords) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole)
    (hf : first1 i) (hl : last1 i) (x : Vec F S256x512 .f32) (w : Vec F S512x128 .f32) (b : Vec F S1x128 .f32) (y : S256x128.Idx) :
    ∃ pc ∈ (run1_only (F := F) c i arg3 harg3 arg4 harg4 arg5 harg5 arg6 harg6 arg7 harg7 hf hl x w b).1, y ∈ pc.1.set :=
  View.cover_of_tiledL _ S256x128.size (by sl_kernel_rfl) y

theorem out1_only (c : Dev nD) (i : grid1.Coords) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole)
    (hf : first1 i) (hl : last1 i) (x : Vec F S256x512 .f32) (w : Vec F S512x128 .f32) (b : Vec F S1x128 .f32) :
    View.canon (run1_only (F := F) c i arg3 harg3 arg4 harg4 arg5 harg5 arg6 harg6 arg7 harg7 hf hl x w b).1 = k1_pay3 (k1_pay2 (k1_pay1) x w) b := by
  unfold run1_only; dsimp only; sl_unfold_words
  rw [View.canon_cons_unit_zero zero_offsets]
  simp only [View.readAt_eq_ld, harg3.read_unread, harg4.read_unread, harg5.read_unread, View.ld_unit_zero (S := S256x512) zero_offsets,
    View.ld_unit_zero (S := S512x128) zero_offsets, View.ld_unit_zero (S := S1x128) zero_offsets,
    readCov_cons_whole (S := S256x128) _ zero_offsets]

end Cert.ReferenceIdeal.Layers

end
-- ==== Proof.RefData0.lean ====
/-
  Region 0 point by point.  Writing x_t, w_t, b_t for the blocks of the three inputs at point t (read off the arrays
  as the region finds them), the accumulator after point t is

      a_t = 0 + x_t·w_t          when t is a first step (t ≡ 0 mod 6),
      a_t = a_{t-1} + x_t·w_t    otherwise,

  and the output block's buffer after a last step t is a_t + b_t.  Between points the region keeps: the accumulator at
  a_{t-1}, the other buffers no window of this region stages at anything, and the generator register at some state.
  This module states that data and proves that the body, called at any point on buffers holding the points' blocks,
  takes the data before the point to the data after it: a case split on the position of the step in its contraction.
-/
import proofs.«165921_g2000202692251168_pallasbulk_345_10_alg».proof.Proof.RefPieces

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, whether it was fetched there or not (when it is not, its
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- The accumulator after point `n`. -/
def accAt0 (c : Dev nD) : (n : ℕ) → n < cfg0.N → Vec F S256x256 .f32
  | 0, hn => k0_pay2 (k0_pay1) (iblk0 V c 0 ⟨0, hn⟩) (iblk0 V c 1 ⟨0, hn⟩)
  | n + 1, hn => k0_pay2 (if (n + 1) % 6 = 0 then k0_pay1 else accAt0 c n (Nat.lt_of_succ_lt hn)) (iblk0 V c 0 ⟨n + 1, hn⟩) (iblk0 V c 1 ⟨n + 1, hn⟩)

theorem accAt0_first (c : Dev nD) (t : Fin cfg0.N) (h : t.val % 6 = 0) :
    accAt0 V c t.val t.isLt = k0_pay2 (k0_pay1) (iblk0 V c 0 t) (iblk0 V c 1 t) := by
  obtain ⟨n, hn⟩ := t
  cases n with
  | zero => rfl
  | succ n => simp only [accAt0]; rw [if_pos h]

theorem accAt0_next (c : Dev nD) (t : Fin cfg0.N) (h : ¬t.val % 6 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => simp only [accAt0]; rw [if_neg h]; rfl

/-- The output block's buffer after point `t` (meaningful at a last step; elsewhere the buffer is not stored into, and
    this value is consulted by nothing). -/
def outAt0 (c : Dev nD) (t : Fin cfg0.N) : Vec F S256x256 .f32 :=
  k0_pay3 (accAt0 V c t.val t.isLt) (iblk0 V c 2 t)

/-! ## What the region keeps between points -/

/-- The scoped buffers of the core that are neither a staging buffer of this region nor its accumulator: region 1's
    staging buffers and accumulator, each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's invariant, with the accumulator split off. -/
theorem PhiA0_eq (c : Dev nD) :
    (Pipeline.ΦA spec0 c : sProp 𝕄)
      = iprop(((∃ d, owns (c : Thread nD τ) acc0 fullShare d) ∗ rest0 (F := F) c) ∗ (∃ r, prngReg c r)) := by
  unfold Pipeline.ΦA; rw [scopedRest0_eq]; simp only [acc0, owns_whole]; rfl

/-- Before point `n`: at the region's entry the class's invariant (the accumulator at anything); afterwards the
    accumulator at what the point before left. -/
def PhiS0 (c : Dev nD) : (n : ℕ) → n ≤ cfg0.N → sProp 𝕄
  | 0, _ => Pipeline.ΦA spec0 c
  | n + 1, hn => iprop((owns (c : Thread nD τ) acc0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) acc0 fullShare (accAt0 V c n hn) ∗ rest0 (F := F) c) ∗ (∃ r, prngReg c r)) := rfl

theorem PhiS0_pos (c : Dev nD) (n : ℕ) (h : n ≤ cfg0.N) (hz : n ≠ 0) :
    PhiS0 V c n h = iprop((owns (c : Thread nD τ) acc0 fullShare (accAt0 V c (n - 1) (by omega)) ∗ rest0 (F := F) c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input's buffer is handed back holding its block. -/
theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

/-! ## The body at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- What the invariant before a point offers a step that does not look at the accumulator's contents. -/
theorem Phi0_any (c : Dev nD) (t : Fin cfg0.N) :
    (dat0 V c).Φ t.castSucc ⊢ iprop(((∃ d, owns (c : Thread nD τ) acc0 fullShare d) ∗ rest0 (F := F) c) ∗ (∃ r, prngReg c r)) := by
  rw [Phi0_castSucc]
  by_cases hz : t.val = 0
  · rw [PhiS0_zero V c _ _ hz, PhiA0_eq]
  · rw [PhiS0_pos V c _ _ hz]
    iintro ⟨⟨HS, Hr⟩, Hg⟩
    isplitl [HS Hr]
    · isplitl [HS]
      · iexists _; iexact HS
      iexact Hr
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 192 := lt_of_lt_of_eq t.isLt (show cfg0.N = 192 from N_0)
  by_cases hF : t.val % 6 = 0
  · -- a first step
    have hL : ¬t.val % 6 = 5 := by omega
    rw [Dat.leavesExact_idle (dat0 V c) 3 t (idle0_3 t (fun h => hL ((last0_iff t).mp h))) (noFlush0_3 t (fun h => hL ((last0_iff t).mp h)))]
    rw [accAt0_first V c t hF]
    iintro ⟨HΦ, Ho, ⟨%d0, H0⟩, ⟨%d1, H1⟩, ⟨%d2, H2⟩, H3⟩
    ihave HΦ' := (Phi0_any V c t) $$ HΦ
    icases HΦ' with ⟨⟨HS, Hr⟩, Hg⟩
    iapply ((run0_first (F := F) c (grid0.coords t) (ms0_0 t) (hs0_0 t) (ms0_1 t) (hs0_1 t) (ms0_2 t) (hs0_2 t) (ms0_3 t) (hs0_3 t) acc0 (Memref.isWhole_whole _) ((first0_iff t).mpr hF) (fun h => hL ((last0_iff t).mp h)) (iblk0 V c 0 t) (iblk0 V c 1 t)).2 Set.univ _)
    isplitl [H0]; · iexact H0
    isplitl [H1]; · iexact H1
    isplitl [HS]; · iexact HS
    iintro ⟨H0, H1, ⟨%es, HS⟩⟩
    isplitl [HS Hr Hg]
    · isplitl [HS Hr]
      · isplitl [HS]
        · unfold owns; iexists _; isplitr
          swap; · iexact HS
          ipureintro
          exact (View.read_writes_eq_canon _ _ _ (cover0_first c _ _ _ _ _ _ _ _ _ _ _ _ _ _ _)).trans (acc0_first c _ _ _ _ _ _ _ _ _ _ _ _ _ _ _)
        iexact Hr
      iexact Hg
    isplitl [Ho]; · iexact Ho
    isplitl [H0]; · iexact H0
    isplitl [H1]; · iexact H1
    isplitl [H2]; · iexact H2
    iexact H3
  · have hz : t.val ≠ 0 := fun e => hF (by rw [e])
    by_cases hL : t.val % 6 = 5
    · -- a last step
      rw [show (dat0 V c).leavesExact 3 t = owns (c : Thread nD τ) (ms0_3 t) fullShare ((dat0 V c).after 3 t) from by
        unfold Dat.leavesExact; rw [live0_3 t ((last0_iff t).mpr hL)], after0_3]
      unfold outAt0
      rw [accAt0_next V c t hF]
      rw [Phi0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_last (F := F) c (grid0.coords t) (ms0_0 t) (hs0_0 t) (ms0_1 t) (hs0_1 t) (ms0_2 t) (hs0_2 t) (ms0_3 t) (hs0_3 t) acc0 (Memref.isWhole_whole _) (fun h => hF ((first0_iff t).mp h)) ((last0_iff t).mpr hL) (iblk0 V c 0 t) (iblk0 V c 1 t) (iblk0 V c 2 t) (accAt0 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro
            exact (View.read_writes_eq_canon _ _ _ (cover0_last_acc c _ _ _ _ _ _ _ _ _ _ _ _ _ _ _ _ _)).trans (acc0_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (cover0_last_out c _ _ _ _ _ _ _ _ _ _ _ _ _ _ _ _ _)).trans (out0_last c _ _ _ _ _ _ _ _ _ _ _ _ _ _ _ _ _)
    · -- a middle step
      rw [Dat.leavesExact_idle (dat0 V c) 3 t (idle0_3 t (fun h => hL ((last0_iff t).mp h))) (noFlush0_3 t (fun h => hL ((last0_iff t).mp h)))]
      rw [accAt0_next V c t hF]
      rw [Phi0_castSucc V c t, PhiS0_pos V c _ _ hz]
      iintro ⟨⟨⟨HS, Hr⟩, Hg⟩, Ho, ⟨%d0, H0⟩, ⟨%d1, H1⟩, ⟨%d2, H2⟩, H3⟩
      iapply ((run0_middle (F := F) c (grid0.coords t) (ms0_0 t) (hs0_0 t) (ms0_1 t) (hs0_1 t) (ms0_2 t) (hs0_2 t) (ms0_3 t) (hs0_3 t) acc0 (Memref.isWhole_whole _) (fun h => hF ((first0_iff t).mp h)) (fun h => hL ((last0_iff t).mp h)) (iblk0 V c 0 t) (iblk0 V c 1 t) (accAt0 V c (t.val - 1) (Nat.lt_of_le_of_lt (Nat.sub_le _ _) t.isLt))).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro
            exact (View.read_writes_eq_canon _ _ _ (cover0_middle c _ _ _ _ _ _ _ _ _ _ _ _ _ _ _ _)).trans (acc0_middle c _ _ _ _ _ _ _ _ _ _ _ _ _ _ _ _)
          iexact Hr
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 192 := N_0; omega), PhiA0_eq]
  iintro ⟨⟨HS, Hr⟩, Hg⟩
  isplitl [HS Hr]
  · isplitl [HS]
    · iexists _; iexact HS
    iexact Hr
  iexact Hg

end Cert.ReferenceIdeal.Layers

end
-- ==== Proof.RefData1.lean ====
/-
  Region 1 point by point.  Each of its 16 points is a whole contraction: with x_t the block of rows t of the first
  layer's result, W the second weight matrix and b its bias row, the output block's buffer after point t is
  (0 + x_t·W) + b.  Nothing is carried from one point to the next: the accumulator is cleared at every point before it
  is read, so between points the region keeps only the buffers it does not stage, at anything, and the generator
  register at some state.
-/
import proofs.«165921_g2000202692251168_pallasbulk_345_10_alg».proof.Proof.RefPieces

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block's buffer after point `t`. -/
def outAt1 (c : Dev nD) (t : Fin cfg1.N) : Vec F S256x128 .f32 :=
  k1_pay3 (k1_pay2 (k1_pay1) (iblk1 V c 0 t) (iblk1 V c 1 t)) (iblk1 V c 2 t)

/-- The class's invariant with the scoped buffers this region does not stage listed: region 0's staging buffers and
    accumulator, then this region's accumulator. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) acc1 fullShare d)) ∗ (∃ r, prngReg c r)) := by
  unfold Pipeline.ΦA; rw [scopedRest1_eq]; simp only [acc1, owns_whole]
  try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
theorem leaves1_3 (c : Dev nD) (t : Fin cfg1.N) : (dat1 V c).leavesExact 3 t = owns (c : Thread nD τ) (ms1_3 t) fullShare (outAt1 V c t) := by
  unfold Dat.leavesExact; rw [live1_3 t, after1_3]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl]
  rw [leaves1_0, leaves1_1, leaves1_2, leaves1_3, PhiA1_eq]
  unfold outAt1
  iintro ⟨⟨⟨B1, B2, B3, B4, B5, B6, B7, B8, B9, HS⟩, Hg⟩, Ho, ⟨%d0, H0⟩, ⟨%d1, H1⟩, ⟨%d2, H2⟩, ⟨%d3, H3⟩⟩
  iapply ((run1_only (F := F) c (grid1.coords t) (ms1_0 t) (hs1_0 t) (ms1_1 t) (hs1_1 t) (ms1_2 t) (hs1_2 t) (ms1_3 t) (hs1_3 t) acc1 (Memref.isWhole_whole _) (first1_all t) (last1_all t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [B1 B2 B3 B4 B5 B6 B7 B8 B9 HS Hg]
  · isplitl [B1 B2 B3 B4 B5 B6 B7 B8 B9 HS]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexists _
      unfold owns; iexists _; isplitr
      swap; · iexact HS
      ipureintro; rfl
    iexact Hg
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover1_out c _ _ _ _ _ _ _ _ _ _ _ _ _ _ _ _)).trans (out1_only c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.ReferenceIdeal.Layers

end
-- ==== Proof.RefRun.lean ====
/-
  The reference's run from the launch to the return.  @main is three items: the host's reshape of the input to
  4096 × 3072, then the two regions.  The contents of the core's buffers at each boundary are a fold from the launch
  memory: after the reshape; after region 0, whose output array (the first layer's result) holds what its write-backs
  left and whose other buffers are untouched; after region 1 likewise for the final result.  Run through the library's
  theorem for a program of several regions, every weakly fair execution terminates and the final memory holds, at
  every buffer that outlives a region, the last boundary's contents: the arguments as launched, and the result array at
  what region 1's write-backs made of it.
-/
import proofs.«165921_g2000202692251168_pallasbulk_345_10_alg».proof.Proof.RefData0
import proofs.«165921_g2000202692251168_pallasbulk_345_10_alg».proof.Proof.RefData1
import proofs.«165921_g2000202692251168_pallasbulk_345_10_alg».proof.Proof.Gen.ReferenceIdeal.Regions

set_option maxRecDepth 16384

noncomputable section

namespace Cert.ReferenceIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Layers

variable (m : (ℓ : Loc nD τ sig) → Buf (Elt F) ℓ) (ρ : Dev nD → PrngReg)

/-! ## The buffers' contents at each boundary -/

/-- After the reshape, read at the TensorCore's references: what region 0 is entered with. -/
abbrev V1r : (c : Dev nD) → (b : Ref sig .tc) → Buf (Elt F) ((c : Thread nD τ).loc b) := fun c b => Gen.V1 m c b
/-- After region 0: its arrays at what the pipeline leaves, every other buffer as entered. -/
def W2 (c : Dev nD) : Valuation τ sig (Elt F) :=
  Pipeline.withArrays spec0 c (Gen.V1 m c) fun w => (dat0 (V1r m) c).arrAt w cfg0.N
theorem W2_arr (c : Dev nD) (w : Fin cfg0.W) :
    W2 m c (Proc.devRef .tc (Pipeline.arrRef spec0 w)) = (dat0 (V1r m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
abbrev V2r : (c : Dev nD) → (b : Ref sig .tc) → Buf (Elt F) ((c : Thread nD τ).loc b) := fun c b => W2 m c b
theorem hF0 (c : Dev nD) (w : Fin cfg0.W) : (dat0 (V1r m) c).arrAt w cfg0.N = V2r m c (Pipeline.arrRef spec0 w) :=
  (W2_arr m c w).symm
theorem hrest0 (c : Dev nD) : ∀ b, b ∉ Finset.univ.image (Pipeline.arrRef spec0) → V2r m c b = V1r m c b :=
  fun b hb => W2_of_ne m c b fun w e => hb (Finset.mem_image.mpr ⟨w, Finset.mem_univ _, e⟩)

/-- After region 1. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-! ## The arguments end as launched: the reshape writes its own result only, and a region writes only its output array -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_arr m c 1).trans <| ((dat0 (V1r m) c).arrAt_in 1 rfl _).trans <| (A_eq0 (V1r m) c 1).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_arr m c 2).trans <| ((dat0 (V1r m) c).arrAt_in 2 rfl _).trans <| (A_eq0 (V1r m) c 2).trans <| (Gen.V1_of m c main_arg2 (by decide)).trans rfl
theorem W3_main_arg3 (c : Dev nD) : W3 m c (Proc.devRef .tc main_arg3) = m ((c : Thread nD τ).loc main_arg3) :=
  (W3_arr m c 1).trans <| ((dat1 (V2r m) c).arrAt_in 1 rfl _).trans <| (A_eq1 (V2r m) c 1).trans <| (W2_of_ne m c main_arg3 (by decide)).trans <| (Gen.V1_of m c main_arg3 (by decide)).trans rfl
theorem W3_main_arg4 (c : Dev nD) : W3 m c (Proc.devRef .tc main_arg4) = m ((c : Thread nD τ).loc main_arg4) :=
  (W3_arr m c 2).trans <| ((dat1 (V2r m) c).arrAt_in 2 rfl _).trans <| (A_eq1 (V2r m) c 2).trans <| (W2_of_ne m c main_arg4 (by decide)).trans <| (Gen.V1_of m c main_arg4 (by decide)).trans rfl

/-- The result array ends at what region 1's write-backs made of it. -/
theorem W3_main_v2 (c : Dev nD) : W3 m c (Proc.devRef .tc main_v2) = (dat1 (V2r m) c).arrAt 3 cfg1.N :=
  W3_arr m c 3

/-- Region 1's left operand, as it finds it, is what region 0's write-backs made of the first layer's result. -/
theorem V2r_main_v1 (c : Dev nD) : V2r m c main_v1 = (dat0 (V1r m) c).arrAt 3 cfg0.N :=
  W2_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- The reshape as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R

theorem mem_uc (b : Ref sig .tc) (h : ¬(Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 as a segment: entered with every unscoped buffer at the boundary's contents, its windows' arrays split out
    of them; left with the arrays at what the write-backs made of them and every other buffer as entered; the scoped
    buffers and the generator register go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1r m) c).Φ (Fin.last cfg0.N) from rfl]
    have hback := hout0 (V1r m) c
    unfold Pipeline.ΦA at hback
    iintro Hinv
    ihave H := hback $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents, its windows' arrays split out
    of them; left with the arrays at what the write-backs made of them and every other buffer as entered; the scoped
    buffers and the generator register go into the region's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every buffer that outlives a region at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.ReferenceIdeal.Layers

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.RefMath0.lean ====
/-
  Region 0 at the exact instance: its output array ends at the affine layer X·W + b of the arrays it is entered with.

  At the exact instance the body's three stored values are: the zero matrix; accumulator + x·w; accumulator + bias row.
  Reading the blocks at an entry — point t = 12·i + 6·j + k works on rows 256·i … of the left operand, columns 256·j …
  of the weights, and slab k of 512 along the contraction — the accumulator after point t is, at (p, q),

      Σ_{s ≤ k} Σ_{r < 512} X(256·i + p, 512·s + r) · W(512·s + r, 256·j + q)

  by induction on the point.  At k = 5 the six slabs' partial sums are the whole contraction over 3072 (a finite sum in a
  commutative monoid may be regrouped: no finiteness of the entries is used), so what the last step writes back is
  block (i, j) of X·W + b; the 32 blocks written back tile the array.
-/
import proofs.«165921_g2000202692251168_pallasbulk_345_10_alg».proof.Proof.RefData0
import proofs.«165921_g2000202692251168_pallasbulk_345_10_alg».proof.Proof.LibAffineRows
import proofs.«165921_g2000202692251168_pallasbulk_345_10_alg».proof.Proof.LibBlockSum
import Idealize.ShloMosaic.Lib.ValueLayout

set_option maxRecDepth 16384

noncomputable section

namespace Cert.ReferenceIdeal.Layers

open Idealize.ShloMosaic Idealize.ShloMosaic.TcCoe Idealize.ShloMosaic.ValueIdx
open Idealize.SL.Sem
open Idealize.ShloMosaic.Pipeline (Dat)
open Cert.ReferenceIdeal Cert.ReferenceIdeal.Gen Cert.ReferenceIdeal.Layers
open Cert.LibMatrixRows Cert.LibAffineRows
open scoped BigOperators

/-! ## The body's stored values -/

theorem pay0_zero (j : S256x256.Idx) : k0_pay1 (F := Ideal) j = 0 := by
  simp only [k0_pay1, shapeCast_self]
  show Ideal.ofBits .f32 0x00000000#32 = 0
  exact Ideal.ofBits_zero_f32

theorem pay0_acc (a : Vec Ideal S256x256 .f32) (x : Vec Ideal S256x512 .f32) (w : Vec Ideal S512x256 .f32) (p q : Fin 256) :
    k0_pay2 (F := Ideal) a x w (ix2 p q) = a (ix2 p q) + ∑ r : Fin 512, x (ix2 p r) * w (ix2 r q) := by
  simp only [k0_pay2, shapeCast_self]
  rw [show dot_S256x512_S512x256_S256x256_1_0_0_1_n_n = DotDims.plain 256 512 256 from rfl]
  show a (ix2 p q) + FloatOps.matmul (F := Ideal) (DotDims.plain 256 512 256) none x w (constant (F := Ideal) ⟨2, ![256, 256]⟩ .f32 0x00000000#32) (ix2 p q) = _
  rw [Cert.LibMatmul2d.matmul_plain_apply]

theorem pay0_out (a : Vec Ideal S256x256 .f32) (b : Vec Ideal S1x256 .f32) (p q : Fin 256) :
    k0_pay3 (F := Ideal) a b (ix2 p q) = a (ix2 p q) + b (ix2 (0 : Fin 1) q) := by
  simp only [k0_pay3]
  show a (ix2 p q) + broadcastTo ⟨2, ![256, 256]⟩ b broadcasts_S1x256_S256x256 (ix2 p q) = _
  rw [broadcastTo_1b_ab_apply]

/-! ## Reading an array at natural-number coordinates -/

/-- Entry (a, b) of a matrix, zero outside it: lets a statement name an entry by arithmetic on its coordinates. -/
def rd {n k : ℕ} (A : Mat n k) (a b : ℕ) : EReal := if h : a < n ∧ b < k then A (ix2 ⟨a, h.1⟩ ⟨b, h.2⟩) else 0

theorem rd_fin {n k : ℕ} (A : Mat n k) (a : Fin n) (b : Fin k) : rd A a.val b.val = A (ix2 a b) := by
  unfold rd; rw [dif_pos ⟨a.isLt, b.isLt⟩]

/-! ## The blocks of region 0's windows -/

variable (V : (c : Dev nD) → (b : Ref sig .tc) → Buf (Elt Ideal) ((c : Thread nD τ).loc b))

/-- Point t = 12·i + 6·j + k: the left operand's block is (i, k), the weights' (k, j), the bias row's (0, j), the
    output's (i, j).  Decided over the 192 points. -/
theorem index_facts0 : ∀ t : Fin cfg0.N,
    win0_0.index t (0 : Fin 2) = t.val / 12 ∧ win0_0.index t (1 : Fin 2) = t.val % 6
    ∧ win0_1.index t (0 : Fin 2) = t.val % 6 ∧ win0_1.index t (1 : Fin 2) = t.val / 6 % 2
    ∧ win0_2.index t (0 : Fin 2) = 0 ∧ win0_2.index t (1 : Fin 2) = t.val / 6 % 2
    ∧ win0_3.index t (0 : Fin 2) = t.val / 12 ∧ win0_3.index t (1 : Fin 2) = t.val / 6 % 2 :=
  (by decide +kernel : ∀ t : Fin grid0.N, _)

theorem blk0_left (c : Dev nD) (X : Mat 4096 3072) (hX : (V c main_v0 : S4096x3072.Idx → EReal) = X) (t : Fin cfg0.N) (p : Fin 256) (r : Fin 512) :
    iblk0 V c 0 t (ix2 p r) = rd X (256 * (t.val / 12) + p.val) (512 * (t.val % 6) + r.val) := by
  have ht : t.val < 192 := lt_of_lt_of_eq t.isLt N_0
  obtain ⟨e0, e1, -⟩ := index_facts0 t
  have h1 : 256 * (t.val / 12) + p.val < 4096 := by have := p.isLt; omega
  have h2 : 512 * (t.val % 6) + r.val < 3072 := by have := r.isLt; omega
  unfold rd; rw [dif_pos ⟨h1, h2⟩, ← hX]
  show V c main_v0 (((cfg0.win 0).blk t).view.emb (ix2 p r)) = V c main_v0 (ix2 ⟨_, h1⟩ ⟨_, h2⟩)
  refine congrArg _ ?_
  funext a; apply Fin.ext
  match a with
  | ⟨0, _⟩ => show win0_0.index t (0 : Fin 2) * 256 + 1 * p.val = 256 * (t.val / 12) + p.val; omega
  | ⟨1, _⟩ => show win0_0.index t (1 : Fin 2) * 512 + 1 * r.val = 512 * (t.val % 6) + r.val; omega

theorem blk0_weights (c : Dev nD) (W : Mat 3072 512) (hW : (V c main_arg1 : S3072x512.Idx → EReal) = W) (t : Fin cfg0.N) (r : Fin 512) (q : Fin 256) :
    iblk0 V c 1 t (ix2 r q) = rd W (512 * (t.val % 6) + r.val) (256 * (t.val / 6 % 2) + q.val) := by
  have ht : t.val < 192 := lt_of_lt_of_eq t.isLt N_0
  obtain ⟨-, -, e2, e3, -⟩ := index_facts0 t
  have h1 : 512 * (t.val % 6) + r.val < 3072 := by have := r.isLt; omega
  have h2 : 256 * (t.val / 6 % 2) + q.val < 512 := by have := q.isLt; omega
  unfold rd; rw [dif_pos ⟨h1, h2⟩, ← hW]
  show V c main_arg1 (((cfg0.win 1).blk t).view.emb (ix2 r q)) = V c main_arg1 (ix2 ⟨_, h1⟩ ⟨_, h2⟩)
  refine congrArg _ ?_
  funext a; apply Fin.ext
  match a with
  | ⟨0, _⟩ => show win0_1.index t (0 : Fin 2) * 512 + 1 * r.val = 512 * (t.val % 6) + r.val; omega
  | ⟨1, _⟩ => show win0_1.index t (1 : Fin 2) * 256 + 1 * q.val = 256 * (t.val / 6 % 2) + q.val; omega

theorem blk0_bias (c : Dev nD) (b : Mat 1 512) (hb : (V c main_arg2 : S1x512.Idx → EReal) = b) (t : Fin cfg0.N) (q : Fin 256) :
    iblk0 V c 2 t (ix2 (0 : Fin 1) q) = rd b 0 (256 * (t.val / 6 % 2) + q.val) := by
  have ht : t.val < 192 := lt_of_lt_of_eq t.isLt N_0
  obtain ⟨-, -, -, -, e4, e5, -⟩ := index_facts0 t
  have h2 : 256 * (t.val / 6 % 2) + q.val < 512 := by have := q.isLt; omega
  unfold rd; rw [dif_pos ⟨Nat.one_pos, h2⟩, ← hb]
  show V c main_arg2 (((cfg0.win 2).blk t).view.emb (ix2 (0 : Fin 1) q)) = V c main_arg2 (ix2 ⟨0, Nat.one_pos⟩ ⟨_, h2⟩)
  refine congrArg _ ?_
  funext a; apply Fin.ext
  match a with
  | ⟨0, _⟩ => show win0_2.index t (0 : Fin 2) * 1 + 1 * 0 = 0; omega
  | ⟨1, _⟩ => show win0_2.index t (1 : Fin 2) * 256 + 1 * q.val = 256 * (t.val / 6 % 2) + q.val; omega

/-! ## The accumulator in closed form -/

/-- Slab s of the contraction at (row, col): the 512 products along the contraction coordinates 512·s … 512·s + 511. -/
def slab (X : Mat 4096 3072) (W : Mat 3072 512) (row col s : ℕ) : EReal :=
  ∑ r : Fin 512, rd X row (512 * s + r.val) * rd W (512 * s + r.val) col

theorem acc_closed (c : Dev nD) (X : Mat 4096 3072) (hX : (V c main_v0 : S4096x3072.Idx → EReal) = X)
    (W : Mat 3072 512) (hW : (V c main_arg1 : S3072x512.Idx → EReal) = W) :
    ∀ (n : ℕ) (t : Fin cfg0.N), t.val = n → ∀ p q : Fin 256,
      accAt0 V c t.val t.isLt (ix2 p q)
        = ∑ s ∈ Finset.range (t.val % 6 + 1), slab X W (256 * (t.val / 12) + p.val) (256 * (t.val / 6 % 2) + q.val) s := by
  intro n
  induction n with
  | zero =>
    intro t ht p q
    have h0 : t.val % 6 = 0 := by rw [ht]
    rw [accAt0_first V c t h0, pay0_acc, pay0_zero, zero_add, h0, Finset.sum_range_one]
    unfold slab
    refine Finset.sum_congr rfl fun r _ => ?_
    rw [blk0_left V c X hX t p r, blk0_weights V c W hW t r q, h0]
  | succ n ih =>
    intro t ht p q
    by_cases h0 : t.val % 6 = 0
    · rw [accAt0_first V c t h0, pay0_acc, pay0_zero, zero_add, h0, Finset.sum_range_one]
      unfold slab
      refine Finset.sum_congr rfl fun r _ => ?_
      rw [blk0_left V c X hX t p r, blk0_weights V c W hW t r q, h0]
    · have hprev := ih ⟨t.val - 1, Nat.lt_of_le_of_lt (Nat.sub_le _ _) t.isLt⟩ (by show t.val - 1 = n; omega) p q
      have e1 : (t.val - 1) % 6 + 1 = t.val % 6 := by omega
      have e2 : (t.val - 1) / 12 = t.val / 12 := by omega
      have e3 : (t.val - 1) / 6 % 2 = t.val / 6 % 2 := by omega
      rw [accAt0_next V c t h0, pay0_acc]
      rw [show accAt0 V c (t.val - 1) (Nat.lt_of_le_of_lt (Nat.sub_le _ _) t.isLt) (ix2 p q) = _ from hprev]
      simp only [e1, e2, e3]
      rw [Finset.sum_range_succ]
      refine congrArg _ ?_
      unfold slab
      refine Finset.sum_congr rfl fun r _ => ?_
      rw [blk0_left V c X hX t p r, blk0_weights V c W hW t r q]

/-! ## What a last step writes back, and the array after the region -/

/-- The six slabs of a contraction over 3072 add up to the whole contraction. -/
theorem slabs_total (X : Mat 4096 3072) (W : Mat 3072 512) (row : Fin 4096) (col : Fin 512) :
    ∑ s ∈ Finset.range 6, slab X W row.val col.val s = ∑ k : Fin 3072, X (ix2 row k) * W (ix2 k col) := by
  have h := Cert.LibBlockSum.sum_range_blocks 6 512 (fun k : Fin (6 * 512) => X (ix2 row (k : Fin 3072)) * W (ix2 (k : Fin 3072) col))
    (fun s => slab X W row.val col.val s) (fun s => by
      unfold slab
      refine Finset.sum_congr rfl fun r _ => ?_
      have hk : 512 * s.val + r.val < 3072 := by have := s.isLt; have := r.isLt; omega
      have e : (Cert.LibBlockSum.blockIdx s r : Fin (6 * 512)) = (⟨512 * s.val + r.val, hk⟩ : Fin 3072) :=
        Fin.ext (by rw [Cert.LibBlockSum.blockIdx_val]; show r.val + 512 * s.val = 512 * s.val + r.val; omega)
      rw [e]
      rw [show rd X row.val (512 * s.val + r.val) = X (ix2 row ⟨512 * s.val + r.val, hk⟩) from rd_fin X row ⟨_, hk⟩,
        show rd W (512 * s.val + r.val) col.val = W (ix2 ⟨512 * s.val + r.val, hk⟩ col) from rd_fin W ⟨_, hk⟩ col])
  exact h

theorem flush_iff0 : ∀ t : Fin cfg0.N, (cfg0.win 3).flush t = true ↔ t.val % 6 = 5 := flush0_3

/-- An index of the output array is in point t's block iff each coordinate is in the block's range on its axis. -/
theorem mem_blk0 (t : Fin cfg0.N) (i : S4096x512.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v1).slice (win0_3.rect t)).set ↔ _
  rw [View.set_slice_whole, Rect.mem_set_unit]
  exact Iff.rfl

/-- WHAT A LAST STEP WRITES BACK is its block of the affine layer of the whole arrays. -/
theorem flushed0_eq (c : Dev nD) (X : Mat 4096 3072) (hX : (V c main_v0 : S4096x3072.Idx → EReal) = X)
    (W : Mat 3072 512) (hW : (V c main_arg1 : S3072x512.Idx → EReal) = W)
    (b : Mat 1 512) (hb : (V c main_arg2 : S1x512.Idx → EReal) = b) (t : Fin cfg0.N) (hf : (cfg0.win 3).flush t = true) :
    (dat0 V c).flushed 3 t = ((cfg0.win 3).blk t).view.read (Elt Ideal) (affine X W b) := by
  have h5 : t.val % 6 = 5 := (flush0_3 t).mp hf
  have ht : t.val < 192 := lt_of_lt_of_eq t.isLt N_0
  obtain ⟨-, -, -, -, -, -, e6, e7⟩ := index_facts0 t
  show (cfg0.win 3).cut (grid0.coords t) ((dat0 V c).after 3 t) = _
  rw [after0_3]
  funext j
  obtain ⟨p, q, rfl⟩ : ∃ (p : Fin 256) (q : Fin 256), j = ix2 p q := ⟨j 0, j 1, eq_ix2 j⟩
  have h1 : 256 * (t.val / 12) + p.val < 4096 := by have := p.isLt; omega
  have h2 : 256 * (t.val / 6 % 2) + q.val < 512 := by have := q.isLt; omega
  show outAt0 V c t (ix2 p q) = affine X W b (((cfg0.win 3).blk t).view.emb (ix2 p q))
  have hemb : ((cfg0.win 3).blk t).view.emb (ix2 p q) = ix2 (⟨256 * (t.val / 12) + p.val, h1⟩ : Fin 4096) (⟨256 * (t.val / 6 % 2) + q.val, h2⟩ : Fin 512) := by
    funext a; apply Fin.ext
    match a with
    | ⟨0, _⟩ => show win0_3.index t (0 : Fin 2) * 256 + 1 * p.val = 256 * (t.val / 12) + p.val; omega
    | ⟨1, _⟩ => show win0_3.index t (1 : Fin 2) * 256 + 1 * q.val = 256 * (t.val / 6 % 2) + q.val; omega
  rw [hemb, affine_apply]
  unfold outAt0
  rw [pay0_out, acc_closed V c X hX W hW t.val t rfl p q, blk0_bias V c b hb t q, h5]
  rw [show rd b 0 (256 * (t.val / 6 % 2) + q.val) = b (ix2 (0 : Fin 1) ⟨256 * (t.val / 6 % 2) + q.val, h2⟩) from rd_fin b (0 : Fin 1) ⟨_, h2⟩]
  refine congrArg (· + _) ?_
  exact slabs_total X W ⟨_, h1⟩ ⟨_, h2⟩

/-- The blocks written back cover the output array: entry (a, b) lies in the block of the last step of contraction
    (a / 256, b / 256). -/
theorem cover0 (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  have hN : cfg0.N = 192 := N_0
  refine ⟨⟨12 * ((i 0).val / 256) + 6 * ((i 1).val / 256) + 5, by rw [hN]; omega⟩, ?_, ?_⟩
  · rw [flush0_3]; show (12 * ((i 0).val / 256) + 6 * ((i 1).val / 256) + 5) % 6 = 5; omega
  · rw [mem_blk0]
    obtain ⟨-, -, -, -, -, -, e6, e7⟩ := index_facts0 ⟨12 * ((i 0).val / 256) + 6 * ((i 1).val / 256) + 5, by rw [hN]; omega⟩
    intro a
    match a with
    | ⟨0, _⟩ =>
      show win0_3.index _ (0 : Fin 2) * 256 ≤ (i 0).val ∧ (i 0).val < win0_3.index _ (0 : Fin 2) * 256 + 256
      rw [e6]; show (12 * ((i 0).val / 256) + 6 * ((i 1).val / 256) + 5) / 12 * 256 ≤ (i 0).val ∧ (i 0).val < (12 * ((i 0).val / 256) + 6 * ((i 1).val / 256) + 5) / 12 * 256 + 256
      omega
    | ⟨1, _⟩ =>
      show win0_3.index _ (1 : Fin 2) * 256 ≤ (i 1).val ∧ (i 1).val < win0_3.index _ (1 : Fin 2) * 256 + 256
      rw [e7]; show (12 * ((i 0).val / 256) + 6 * ((i 1).val / 256) + 5) / 6 % 2 * 256 ≤ (i 1).val ∧ (i 1).val < (12 * ((i 0).val / 256) + 6 * ((i 1).val / 256) + 5) / 6 % 2 * 256 + 256
      omega

/-- THE FIRST LAYER'S RESULT after region 0: the affine layer of the arrays the region is entered with. -/
theorem final0 (c : Dev nD) (X : Mat 4096 3072) (hX : (V c main_v0 : S4096x3072.Idx → EReal) = X)
    (W : Mat 3072 512) (hW : (V c main_arg1 : S3072x512.Idx → EReal) = W)
    (b : Mat 1 512) (hb : (V c main_arg2 : S1x512.Idx → EReal) = b) :
    ((dat0 V c).arrAt 3 cfg0.N : S4096x512.Idx → EReal) = affine X W b :=
  (dat0 V c).arrAt_eq_of_cover 3 (affine X W b) (fun t hf => flushed0_eq V c X hX W hW b hb t hf) cover0

end Cert.ReferenceIdeal.Layers

end
-- ==== Proof.RefMath1.lean ====
/-
  Region 1 at the exact instance: its output array ends at the affine layer Y·W + b of the arrays it is entered with.

  Every point is a whole contraction over 512: the body's stored output is (0 + y·W) + b for the band y of 256 rows of
  Y the point is handed, the whole weight matrix W and the whole bias row b.  Row p of a band's layer is row p of the
  band, so the layer of the band is the band of the layer; the 16 bands written back tile the array.
-/
import proofs.«165921_g2000202692251168_pallasbulk_345_10_alg».proof.Proof.RefData1
import proofs.«165921_g2000202692251168_pallasbulk_345_10_alg».proof.Proof.LibAffineRows
import Idealize.ShloMosaic.Lib.ValueLayout

set_option maxRecDepth 16384

noncomputable section

namespace Cert.ReferenceIdeal.Layers

open Idealize.ShloMosaic Idealize.ShloMosaic.TcCoe Idealize.ShloMosaic.ValueIdx
open Idealize.SL.Sem
open Idealize.ShloMosaic.Pipeline (Dat)
open Cert.ReferenceIdeal Cert.ReferenceIdeal.Gen Cert.ReferenceIdeal.Layers
open Cert.LibMatrixRows Cert.LibAffineRows
open scoped BigOperators

theorem pay1_zero (j : S256x128.Idx) : k1_pay1 (F := Ideal) j = 0 := by
  simp only [k1_pay1, shapeCast_self]
  show Ideal.ofBits .f32 0x00000000#32 = 0
  exact Ideal.ofBits_zero_f32

theorem pay1_acc (a : Vec Ideal S256x128 .f32) (x : Vec Ideal S256x512 .f32) (w : Vec Ideal S512x128 .f32) (p : Fin 256) (q : Fin 128) :
    k1_pay2 (F := Ideal) a x w (ix2 p q) = a (ix2 p q) + ∑ r : Fin 512, x (ix2 p r) * w (ix2 r q) := by
  simp only [k1_pay2, shapeCast_self]
  rw [show dot_S256x512_S512x128_S256x128_1_0_0_1_n_n = DotDims.plain 256 512 128 from rfl]
  show a (ix2 p q) + FloatOps.matmul (F := Ideal) (DotDims.plain 256 512 128) none x w (constant (F := Ideal) ⟨2, ![256, 128]⟩ .f32 0x00000000#32) (ix2 p q) = _
  rw [Cert.LibMatmul2d.matmul_plain_apply]

theorem pay1_out (a : Vec Ideal S256x128 .f32) (b : Vec Ideal S1x128 .f32) (p : Fin 256) (q : Fin 128) :
    k1_pay3 (F := Ideal) a b (ix2 p q) = a (ix2 p q) + b (ix2 (0 : Fin 1) q) := by
  simp only [k1_pay3]
  show a (ix2 p q) + broadcastTo ⟨2, ![256, 128]⟩ b broadcasts_S1x128_S256x128 (ix2 p q) = _
  rw [broadcastTo_1b_ab_apply]

/-- The body's stored output is the affine layer of its three blocks. -/
theorem out1_affine (x : Vec Ideal S256x512 .f32) (w : Vec Ideal S512x128 .f32) (b : Vec Ideal S1x128 .f32) :
    k1_pay3 (F := Ideal) (k1_pay2 (k1_pay1) x w) b = affine (M := 256) (K := 512) (N := 128) x w b := by
  funext j
  obtain ⟨p, q, rfl⟩ : ∃ (p : Fin 256) (q : Fin 128), j = ix2 p q := ⟨j 0, j 1, eq_ix2 j⟩
  rw [pay1_out, pay1_acc, pay1_zero, zero_add]
  rfl

variable (V : (c : Dev nD) → (b : Ref sig .tc) → Buf (Elt Ideal) ((c : Thread nD τ).loc b))

/-- Point t works on band t of the left operand and of the output, and on the whole of the weights and the bias row. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem mem_blk1 (t : Fin cfg1.N) (i : S4096x128.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v2).slice (win1_3.rect t)).set ↔ _
  rw [View.set_slice_whole, Rect.mem_set_unit]
  exact Iff.rfl

/-- WHAT POINT t WRITES BACK is its band of the affine layer of the whole arrays. -/
theorem flushed1_eq (c : Dev nD) (Y : Mat 4096 512) (hY : (V c main_v1 : S4096x512.Idx → EReal) = Y)
    (W : Mat 512 128) (hW : (V c main_arg3 : S512x128.Idx → EReal) = W)
    (b : Mat 1 128) (hb : (V c main_arg4 : S1x128.Idx → EReal) = b) (t : Fin cfg1.N) :
    (dat1 V c).flushed 3 t = ((cfg1.win 3).blk t).view.read (Elt Ideal) (affine Y W b) := by
  obtain ⟨e0, e1, e2, e3, e4, e5, e6, e7⟩ := index_facts1 t
  show (cfg1.win 3).cut (grid1.coords t) ((dat1 V c).after 3 t) = _
  rw [after1_3]
  unfold outAt1
  rw [out1_affine]
  funext j
  show affine (M := 256) (K := 512) (N := 128) (iblk1 V c 0 t) (iblk1 V c 1 t) (iblk1 V c 2 t) j = affine Y W b (((cfg1.win 3).blk t).view.emb j)
  refine affine_block Y W b (iblk1 V c 0 t) (iblk1 V c 1 t) (iblk1 V c 2 t) j (((cfg1.win 3).blk t).view.emb j) (fun k => ?_) ?_ ?_ ?_
  · rw [← hY]
    show V c main_v1 (((cfg1.win 0).blk t).view.emb (ix2 (j 0) k)) = V c main_v1 (ix2 ((((cfg1.win 3).blk t).view.emb j) 0) k)
    refine congrArg _ ?_
    funext a; apply Fin.ext
    match a with
    | ⟨0, _⟩ => show win1_0.index t (0 : Fin 2) * 256 + 1 * (j 0).val = win1_3.index t (0 : Fin 2) * 256 + 1 * (j 0).val; omega
    | ⟨1, _⟩ => show win1_0.index t (1 : Fin 2) * 512 + 1 * k.val = k.val; omega
  · rw [← hW]
    funext y
    show V c main_arg3 (((cfg1.win 1).blk t).view.emb y) = V c main_arg3 y
    refine congrArg _ ?_
    funext a; apply Fin.ext
    match a with
    | ⟨0, _⟩ => show win1_1.index t (0 : Fin 2) * 512 + 1 * (y 0).val = (y 0).val; omega
    | ⟨1, _⟩ => show win1_1.index t (1 : Fin 2) * 128 + 1 * (y 1).val = (y 1).val; omega
  · rw [← hb]
    funext y
    show V c main_arg4 (((cfg1.win 2).blk t).view.emb y) = V c main_arg4 y
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show win1_3.index t (1 : Fin 2) * 128 + 1 * (j 1).val = (j 1).val; omega

/-- The 16 bands cover the output array: row a lies in band a / 256. -/
theorem cover1 (i : S4096x128.Idx) : ∃ t : Fin cfg1.N, (cfg1.win 3).flush t = true ∧ i ∈ ((cfg1.win 3).blk t).view.set := by
  have hi0 : (i 0).val < 4096 := (i 0).isLt
  have hi1 : (i 1).val < 128 := (i 1).isLt
  have hN : cfg1.N = 16 := N_1
  refine ⟨⟨(i 0).val / 256, by rw [hN]; omega⟩, flush1_3 _, ?_⟩
  rw [mem_blk1]
  obtain ⟨-, -, -, -, -, -, e6, e7⟩ := index_facts1 ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e6]; show (i 0).val / 256 * 256 ≤ (i 0).val ∧ (i 0).val < (i 0).val / 256 * 256 + 256
    omega
  | ⟨1, _⟩ =>
    show win1_3.index _ (1 : Fin 2) * 128 ≤ (i 1).val ∧ (i 1).val < win1_3.index _ (1 : Fin 2) * 128 + 128
    rw [e7]; omega

/-- THE RESULT after region 1: the affine layer of the arrays the region is entered with. -/
theorem final1 (c : Dev nD) (Y : Mat 4096 512) (hY : (V c main_v1 : S4096x512.Idx → EReal) = Y)
    (W : Mat 512 128) (hW : (V c main_arg3 : S512x128.Idx → EReal) = W)
    (b : Mat 1 128) (hb : (V c main_arg4 : S1x128.Idx → EReal) = b) :
    ((dat1 V c).arrAt 3 cfg1.N : S4096x128.Idx → EReal) = affine Y W b :=
  (dat1 V c).arrAt_eq_of_cover 3 (affine Y W b) (fun t _ => flushed1_eq V c Y hY W hW b hb t) cover1

end Cert.ReferenceIdeal.Layers

end
-- ==== Proof.Bridge.lean ====
/-
  The two runs side by side.  Both programs first flatten the input to 4096 × 3072 on the host, the same reshape, which
  is kept here as one function and never read at an index.  From there the kernel's result array ends at

      (flat(x)·W₁ + b₁)·W₂ + b₂

  (one region, both layers in the body), and so does the reference's: its first region leaves flat(x)·W₁ + b₁ in the
  intermediate array, which its second region finds there and takes to the second layer.  The weights and bias rows
  pass through every item untouched, so they are the launch contents throughout.
-/
import proofs.«165921_g2000202692251168_pallasbulk_345_10_alg».proof.Proof.KernelMath
import proofs.«165921_g2000202692251168_pallasbulk_345_10_alg».proof.Proof.RefRun
import proofs.«165921_g2000202692251168_pallasbulk_345_10_alg».proof.Proof.RefMath0
import proofs.«165921_g2000202692251168_pallasbulk_345_10_alg».proof.Proof.RefMath1
import Idealize.ShloMosaic.Lib.StableHlo.Run

set_option maxRecDepth 16384

noncomputable section

namespace Cert.Bridge

open Idealize.ShloMosaic Idealize.ShloMosaic.TcCoe Idealize.ShloMosaic.ValueIdx
open Idealize.SL.Sem
open Cert.LibMatrixRows Cert.LibAffineRows

/-- The whole computation as one function of the five argument arrays: flatten, then two affine layers. -/
def twoLayers (x : (⟨4, ![4096, 3, 32, 32]⟩ : Shape).Idx → EReal) (hflat : (⟨4, ![4096, 3, 32, 32]⟩ : Shape).ShapeCasts ⟨2, ![4096, 3072]⟩)
    (W₁ : Mat 3072 512) (b₁ : Mat 1 512) (W₂ : Mat 512 128) (b₂ : Mat 1 128) : Mat 4096 128 :=
  affine (affine (shapeCast ⟨2, ![4096, 3072]⟩ x hflat) W₁ b₁) W₂ b₂

/-! ## The kernel -/

section Kernel
open Cert.KernelIdeal Cert.KernelIdeal.Gen

variable (m : (ℓ : Loc nD τ sig) → Buf (Elt Ideal) ℓ) (ρ : Dev nD → PrngReg)

/-- The region finds the flattened input in the reshape's result buffer. -/
theorem kernel_flat (c : Dev nD) :
    (V m c main_v0 : S4096x3072.Idx → EReal) = shapeCast ⟨2, ![4096, 3072]⟩ (m ((c : Thread nD τ).loc main_arg0)) shapeCasts_S4096x3x32x32_S4096x3072 := by
  dsimp only [Gen.V, Gen.hostOps0]; after_results; rfl

theorem kernel_run : θ_run defs (onTc (τ := τ) (main (F := Ideal))) ⟨m, fun _ => 0, ρ⟩ fun r => ∀ c : Dev nD,
      r.2.mem ((c : Thread nD τ).loc main_v1)
        = twoLayers (m ((c : Thread nD τ).loc main_arg0)) shapeCasts_S4096x3x32x32_S4096x3072 (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (Cert.KernelIdeal.Whole.final m c _ (kernel_flat m c) _ (V_main_arg1 m c) _ (V_main_arg2 m c)
      _ (V_main_arg3 m c) _ (V_main_arg4 m c)), (h c).2⟩) (Cert.KernelIdeal.Value.run_blocks m ρ)

end Kernel

/-! ## The reference -/

section Reference
open Cert.ReferenceIdeal Cert.ReferenceIdeal.Gen Cert.ReferenceIdeal.Layers

variable (m : (ℓ : Loc nD τ sig) → Buf (Elt Ideal) ℓ) (ρ : Dev nD → PrngReg)

/-- Region 0 finds the flattened input in the reshape's result buffer. -/
theorem ref_flat (c : Dev nD) :
    (V1r m c main_v0 : S4096x3072.Idx → EReal) = shapeCast ⟨2, ![4096, 3072]⟩ (m ((c : Thread nD τ).loc main_arg0)) shapeCasts_S4096x3x32x32_S4096x3072 := by
  show Gen.V1 m c (Proc.devRef .tc main_v0) = _
  dsimp only [Gen.V1, Gen.V0, Gen.hostOps0]; after_results; rfl

/-- An array no item writes is the launch contents when region 0 is entered … -/
theorem V1r_arg (c : Dev nD) (r : Ref sig .tc) (h : r ∉ Gen.hostOps0_W) : V1r m c r = m ((c : Thread nD τ).loc r) :=
  (Gen.V1_of m c r h).trans rfl
/-- … and when region 1 is, if region 0 does not write it either. -/
theorem V2r_arg (c : Dev nD) (r : Ref sig .tc) (h₀ : ∀ w, Pipeline.arrRef spec0 w ≠ r) (h : r ∉ Gen.hostOps0_W) : V2r m c r = m ((c : Thread nD τ).loc r) :=
  (W2_of_ne m c r h₀).trans (V1r_arg m c r h)

/-- The intermediate array as region 1 finds it: the first layer of the flattened input. -/
theorem ref_mid (c : Dev nD) :
    (V2r m c main_v1 : S4096x512.Idx → EReal)
      = affine (shapeCast ⟨2, ![4096, 3072]⟩ (m ((c : Thread nD τ).loc main_arg0)) shapeCasts_S4096x3x32x32_S4096x3072)
          (m ((c : Thread nD τ).loc main_arg1)) (m ((c : Thread nD τ).loc main_arg2)) :=
  (V2r_main_v1 m c).trans (final0 (V1r m) c _ (ref_flat m c) _ (V1r_arg m c main_arg1 (by decide)) _ (V1r_arg m c main_arg2 (by decide)))

theorem ref_run : θ_run defs (onTc (τ := τ) (main (F := Ideal))) ⟨m, fun _ => 0, ρ⟩ fun r => ∀ c : Dev nD,
      r.2.mem ((c : Thread nD τ).loc main_v2)
        = twoLayers (m ((c : Thread nD τ).loc main_arg0)) shapeCasts_S4096x3x32x32_S4096x3072 (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c _ (mem_uc main_v2 (by decide))).trans ((W3_main_v2 m c).trans
        (final1 (V2r m) c _ (ref_mid m c) _ (V2r_arg m c main_arg3 (by decide) (by decide)) _ (V2r_arg m c main_arg4 (by decide) (by decide)))),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c)⟩) (run_main m ρ)

end Reference

end Cert.Bridge

end
-- ==== Proof.lean ====
/- A fused two-layer linear model against its two-call reference, over the extended reals.

   The kernel flattens the input to X (4096 × 3072) and computes Z = (X·W₁ + b₁)·W₂ + b₂ in one region of four points,
   each on a band of 1024 rows; its bfloat16 casts are the identity at the exact instance.  The reference flattens the
   same way and runs one region per layer: the first cuts the contraction over 3072 into six slabs of 512 and adds them
   into an accumulator carried from point to point, writing accumulator + b₁ back after the sixth; the second is one
   whole contraction per band of 256 rows.  Entry by entry both are

       Σ_j (Σ_k X(i,k)·W₁(k,j) + b₁(j))·W₂(j,n) + b₂(n),

   the reference's inner sum taken slab by slab: a finite sum in a commutative monoid may be regrouped, so the two
   agree on all extended reals and the precondition (finite inputs) is not used for the values.  No rewrite was applied
   in idealizing the kernel, so that conjunct is trivial.  The three frames: the kernel's two are the generated ones; the
   reference's is its run (Proof/RefRun.lean) with the result dropped. -/
import proofs.«165921_g2000202692251168_pallasbulk_345_10_alg».proof.Defs
import proofs.«165921_g2000202692251168_pallasbulk_345_10_alg».proof.Proof.Gen.Kernel
import proofs.«165921_g2000202692251168_pallasbulk_345_10_alg».proof.Proof.Gen.Kernel.Skeleton
import proofs.«165921_g2000202692251168_pallasbulk_345_10_alg».proof.Proof.Gen.Kernel.Launch
import proofs.«165921_g2000202692251168_pallasbulk_345_10_alg».proof.Proof.Gen.Kernel.Points
import proofs.«165921_g2000202692251168_pallasbulk_345_10_alg».proof.Proof.Gen.Kernel.Frame
import proofs.«165921_g2000202692251168_pallasbulk_345_10_alg».proof.Proof.Gen.KernelIdeal
import proofs.«165921_g2000202692251168_pallasbulk_345_10_alg».proof.Proof.Gen.KernelIdeal.Skeleton
import proofs.«165921_g2000202692251168_pallasbulk_345_10_alg».proof.Proof.Gen.KernelIdeal.Launch
import proofs.«165921_g2000202692251168_pallasbulk_345_10_alg».proof.Proof.Gen.KernelIdeal.Points
import proofs.«165921_g2000202692251168_pallasbulk_345_10_alg».proof.Proof.Gen.KernelIdeal.Frame
import proofs.«165921_g2000202692251168_pallasbulk_345_10_alg».proof.Proof.Gen.KernelIdeal.Value
import proofs.«165921_g2000202692251168_pallasbulk_345_10_alg».proof.Proof.Gen.ReferenceIdeal
import proofs.«165921_g2000202692251168_pallasbulk_345_10_alg».proof.Proof.Gen.ReferenceIdeal.Skeleton
import proofs.«165921_g2000202692251168_pallasbulk_345_10_alg».proof.Proof.Gen.ReferenceIdeal.Launch
import proofs.«165921_g2000202692251168_pallasbulk_345_10_alg».proof.Proof.Gen.ReferenceIdeal.Regions
import proofs.«165921_g2000202692251168_pallasbulk_345_10_alg».proof.Proof.Gen.ReferenceIdeal.Points
import proofs.«165921_g2000202692251168_pallasbulk_345_10_alg».proof.Proof.Gen.Pre_finite_inputs
import proofs.«165921_g2000202692251168_pallasbulk_345_10_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference terminates, nothing faulting, with its arguments unchanged: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.ref_run m ρ)

/-- From memories agreeing on the arguments both programs end with the result array at the two affine layers of the
    flattened input — one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Bridge.kernel_run m ρ, ?_⟩
  refine (θ_run Cert.ReferenceIdeal.defs _ _).mono (fun _ h c => ⟨(h c).1.trans ?_, (h c).2⟩) (Cert.Bridge.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
